-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S4x128x8 : Shape := ⟨3, ![4, 128, 8]⟩
abbrev S8 : Shape := ⟨1, ![8]⟩
abbrev S8x32 : Shape := ⟨2, ![8, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S4x128x8 : S_.BroadcastsInDim S4x128x8 (![] : Fin 0 → Fin S4x128x8.rank)
  reducesTo_S4x128x8_S_d0_1_2 : S4x128x8.ReducesTo [0, 1, 2] S_
  bcast_S_S8 : S_.BroadcastsInDim S8 (![] : Fin 0 → Fin S8.rank)
  reducesTo_S8_S_d0 : S8.ReducesTo [0] S_
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S16 .f32) (main_arg8 : FVec F S16x1 .f32) (main_arg9 : FVec F S1 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x1 .f32 := Host.absf main_arg8
  let main_cst_14 : FVec F S_ .f32 := constant S_ .f32 0x7F800000#32
  let main_v40 : FVec F S16x1 .f32 := broadcastInDim S16x1 ![] bcast_S_S16x1 main_cst_14
  let main_v41 : IVec S16x1 1 := cmpf .olt main_v39 main_v40
  let main_c_15 : IVec S_ 1 := constantI S_ 1 1#1
  let main_v42 : IVec S_ 1 := (fun x v => Host.reduce IntOp.andi x v reducesTo_S16x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S8x32 .f32) (main_arg5 : FVec F S32 .f32) (main_arg6 : FVec F S32x16 .f32) (main_arg7 : FVec F S16 .f32) (main_arg8 : FVec F S16x1 .f32) (main_arg9 : FVec F S1 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x32 .f32 := Host.absf main_arg4
  let main_cst_6 : FVec F S_ .f32 := constant S_ .f32 0x7F800000#32
  let main_v20 : FVec F S8x32 .f32 := broadcastInDim S8x32 ![] bcast_S_S8x32 main_cst_6
  let main_v21 : IVec S8x32 1 := cmpf .olt main_v19 main_v20
  let main_c_7 : IVec S_ 1 := constantI S_ 1 1#1
  let main_v22 : IVec S_ 1 := (fun x v => Host.reduce IntOp.andi x v reducesTo_S8x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg6
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg7 main_arg8 main_arg9 main_v33

def fn {F : FTy → Type} [FloatOps F] (main_arg0 : FVec F S16x2048x128 .f32) (main_arg1 : FVec F S16x2048x2048 .f32) (main_arg2 : FVec F S4x128x8 .f32) (main_arg3 : FVec F S8 .f32) (main_arg4 : FVec F S8x32 .f32) (main_arg5 : FVec F S32 .f32) (main_arg6 : FVec F S32x16 .f32) (main_arg7 : FVec F S16 .f32) (main_arg8 : FVec F S16x1 .f32) (main_arg9 : FVec F S1 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x2048 .f32 := Host.absf main_arg1
  let main_cst_0 : FVec F S_ .f32 := constant S_ .f32 0x7F800000#32
  let main_v5 : FVec F S16x2048x2048 .f32 := broadcastInDim S16x2048x2048 ![] bcast_S_S16x2048x2048 main_cst_0
  let main_v6 : IVec S16x2048x2048 1 := cmpf .olt main_v4 main_v5
  let main_c_1 : IVec S_ 1 := constantI S_ 1 1#1
  let main_v7 : IVec S_ 1 := (fun x v => Host.reduce IntOp.andi x v reducesTo_S16x2048x2048_S_d0_1_2 h_S_) main_v6 main_c_1
  let main_v8 : IVec S_ 1 := andi main_v3 main_v7
  let main_v9 : FVec F S4x128x8 .f32 := Host.absf main_arg2
  let main_cst_2 : FVec F S_ .f32 := constant S_ .f32 0x7F800000#32
  let main_v10 : FVec F S4x128x8 .f32 := broadcastInDim S4x128x8 ![] bcast_S_S4x128x8 main_cst_2
  let main_v11 : IVec S4x128x8 1 := cmpf .olt main_v9 main_v10
  let main_c_3 : IVec S_ 1 := constantI S_ 1 1#1
  let main_v12 : IVec S_ 1 := (fun x v => Host.reduce IntOp.andi x v reducesTo_S4x128x8_S_d0_1_2 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_arg5 main_arg6 main_arg7 main_arg8 main_arg9 main_v13 main_v16
-- ==== Kernel.lean ====
abbrev S16x2048x128 : Shape := ⟨3, ![16, 2048, 128]⟩
abbrev S16x2048x2048 : Shape := ⟨3, ![16, 2048, 2048]⟩
abbrev S4x128x8 : Shape := ⟨3, ![4, 128, 8]⟩
abbrev S8 : Shape := ⟨1, ![8]⟩
abbrev S8x32 : Shape := ⟨2, ![8, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S4x8x128 : Shape := ⟨3, ![4, 8, 128]⟩
abbrev S16x1x1 : Shape := ⟨3, ![16, 1, 1]⟩
abbrev S1x2048x128 : Shape := ⟨3, ![1, 2048, 128]⟩
abbrev S1x2048x2048 : Shape := ⟨3, ![1, 2048, 2048]⟩
abbrev S1x1x1 : Shape := ⟨3, ![1, 1, 1]⟩
abbrev S2048x2048 : Shape := ⟨2, ![2048, 2048]⟩
abbrev S1x512x2048 : Shape := ⟨3, ![1, 512, 2048]⟩
abbrev S512x2048 : Shape := ⟨2, ![512, 2048]⟩
abbrev S2048x512 : Shape := ⟨2, ![2048, 512]⟩
abbrev S2048x128 : Shape := ⟨2, ![2048, 128]⟩
abbrev S128x2048 : Shape := ⟨2, ![128, 2048]⟩
abbrev S1x8x128 : Shape := ⟨3, ![1, 8, 128]⟩
abbrev S8x128 : Shape := ⟨2, ![8, 128]⟩
abbrev S8x2048 : Shape := ⟨2, ![8, 2048]⟩
abbrev S8x1 : Shape := ⟨2, ![8, 1]⟩
abbrev S1x8 : Shape := ⟨2, ![1, 8]⟩
abbrev S1x32 : Shape := ⟨2, ![1, 32]⟩
abbrev S1x16 : Shape := ⟨2, ![1, 16]⟩
abbrev S1x1 : Shape := ⟨2, ![1, 1]⟩

abbrev nBuf : Space → Nat
  | .hbm => 13
  | .vmem => 15
  | .smem => 0
  | _ => 0

abbrev bufTy : (tb : Table) → Fin (tcTables nBuf tb) → BufTy
  | .hbm, ⟨0, _⟩ => ⟨S16x2048x128, .f32⟩
  | .hbm, ⟨1, _⟩ => ⟨S16x2048x2048, .f32⟩
  | .hbm, ⟨2, _⟩ => ⟨S4x128x8, .f32⟩
  | .hbm, ⟨3, _⟩ => ⟨S8, .f32⟩
  | .hbm, ⟨4, _⟩ => ⟨S8x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S4x8x128, .f32⟩
  | .hbm, ⟨11, _⟩ => ⟨S16x1x1, .f32⟩
  | .hbm, ⟨12, _⟩ => ⟨S16x1, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x2048, .f32⟩
  | .local _ .vmem, ⟨3, _⟩ => ⟨S1x2048x2048, .f32⟩
  | .local _ .vmem, ⟨4, _⟩ => ⟨S4x8x128, .f32⟩
  | .local _ .vmem, ⟨5, _⟩ => ⟨S8, .f32⟩
  | .local _ .vmem, ⟨6, _⟩ => ⟨S8x32, .f32⟩
  | .local _ .vmem, ⟨7, _⟩ => ⟨S32, .f32⟩
  | .local _ .vmem, ⟨8, _⟩ => ⟨S32x16, .f32⟩
  | .local _ .vmem, ⟨9, _⟩ => ⟨S16, .f32⟩
  | .local _ .vmem, ⟨10, _⟩ => ⟨S16x1, .f32⟩
  | .local _ .vmem, ⟨11, _⟩ => ⟨S1, .f32⟩
  | .local _ .vmem, ⟨12, _⟩ => ⟨S1x1x1, .f32⟩
  | .local _ .vmem, ⟨13, _⟩ => ⟨S1x1x1, .f32⟩
  | .local _ .vmem, ⟨14, _⟩ => ⟨S2048x2048, .bf16⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S4x128x8_S4x8x128_0_2_1 : S4x128x8.Transposes [0, 2, 1] S4x8x128
  inb_S1x2048x2048_S1x512x2048_0_0_0 : ∀ a, (![0, 0, 0] : Fin 3 → Nat) a + S1x512x2048.size a ≤ S1x2048x2048.size a
  h_S1x512x2048 : 0 < S1x512x2048.numel
  shapeCasts_S1x512x2048_S512x2048 : S1x512x2048.ShapeCasts S512x2048
  bitsLt_bf16_f32 : FTy.bits .bf16 < FTy.bits .f32
  transposes_S512x2048_p1_0_S2048x512 : S512x2048.Transposes [1, 0] S2048x512
  inb_S2048x2048_S2048x512_0_0 : ∀ a, (![0, 0] : Fin 2 → Nat) a + S2048x512.size a ≤ S2048x2048.size a
  h_S2048x512 : 0 < S2048x512.numel
  shapeCasts_S2048x512_S2048x512 : S2048x512.ShapeCasts S2048x512
  packedbf16_S2048x2048_S2048x512_0_0 : (Rect.unit (s := S2048x2048) ![0, 0] S2048x512.size inb_S2048x2048_S2048x512_0_0).PackedRows (EltTy.packing .bf16)
  inb_S1x2048x2048_S1x512x2048_0_512_0 : ∀ a, (![0, 512, 0] : Fin 3 → Nat) a + S1x512x2048.size a ≤ S1x2048x2048.size a
  inb_S2048x2048_S2048x512_0_512 : ∀ a, (![0, 512] : Fin 2 → Nat) a + S2048x512.size a ≤ S2048x2048.size a
  packedbf16_S2048x2048_S2048x512_0_512 : (Rect.unit (s := S2048x2048) ![0, 512] S2048x512.size inb_S2048x2048_S2048x512_0_512).PackedRows (EltTy.packing .bf16)
  inb_S1x2048x2048_S1x512x2048_0_1024_0 : ∀ a, (![0, 1024, 0] : Fin 3 → Nat) a + S1x512x2048.size a ≤ S1x2048x2048.size a
  inb_S2048x2048_S2048x512_0_1024 : ∀ a, (![0, 1024] : Fin 2 → Nat) a + S2048x512.size a ≤ S2048x2048.size a
  packedbf16_S2048x2048_S2048x512_0_1024 : (Rect.unit (s := S2048x2048) ![0, 1024] S2048x512.size inb_S2048x2048_S2048x512_0_1024).PackedRows (EltTy.packing .bf16)
  inb_S1x2048x2048_S1x512x2048_0_1536_0 : ∀ a, (![0, 1536, 0] : Fin 3 → Nat) a + S1x512x2048.size a ≤ S1x2048x2048.size a
  inb_S2048x2048_S2048x512_0_1536 : ∀ a, (![0, 1536] : Fin 2 → Nat) a + S2048x512.size a ≤ S2048x2048.size a
  packedbf16_S2048x2048_S2048x512_0_1536 : (Rect.unit (s := S2048x2048) ![0, 1536] S2048x512.size inb_S2048x2048_S2048x512_0_1536).PackedRows (EltTy.packing .bf16)
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  transposes_S2048x128_p1_0_S128x2048 : S2048x128.Transposes [1, 0] S128x2048
  inb_S2048x2048_S2048x2048_0_0 : ∀ a, (![0, 0] : Fin 2 → Nat) a + S2048x2048.size a ≤ S2048x2048.size a
  h_S2048x2048 : 0 < S2048x2048.numel
  inb_S4x8x128_S4x8x128_0_0_0 : ∀ a, (![0, 0, 0] : Fin 3 → Nat) a + S4x8x128.size a ≤ S4x8x128.size a
  h_S4x8x128 : 0 < S4x8x128.numel
  shapeCasts_S4x8x128_S4x8x128 : S4x8x128.ShapeCasts S4x8x128
  slices_S4x8x128_o0_0_0_S1x8x128 : S4x8x128.Slices ![0, 0, 0] S1x8x128
  shapeCasts_S1x8x128_S8x128 : S1x8x128.ShapeCasts S8x128
  slices_S4x8x128_o1_0_0_S1x8x128 : S4x8x128.Slices ![1, 0, 0] S1x8x128
  slices_S4x8x128_o2_0_0_S1x8x128 : S4x8x128.Slices ![2, 0, 0] S1x8x128
  slices_S4x8x128_o3_0_0_S1x8x128 : S4x8x128.Slices ![3, 0, 0] S1x8x128
  inb_S8_S8_0 : ∀ a, (![0] : Fin 1 → Nat) a + S8.size a ≤ S8.size a
  h_S8 : 0 < S8.numel
  shapeCasts_S8_S8x1 : S8.ShapeCasts S8x1
  broadcasts_S8x1_S8x2048 : S8x1.Broadcasts S8x2048
  reduces_S8x2048_S8 : S8x2048.Reduces [1] S8
  transposes_S8x1_p1_0_S1x8 : S8x1.Transposes [1, 0] S1x8
  inb_S8x32_S8x32_0_0 : ∀ a, (![0, 0] : Fin 2 → Nat) a + S8x32.size a ≤ S8x32.size a
  h_S8x32 : 0 < S8x32.numel
  inb_S32_S32_0 : ∀ a, (![0] : Fin 1 → Nat) a + S32.size a ≤ S32.size a
  h_S32 : 0 < S32.numel
  shapeCasts_S32_S1x32 : S32.ShapeCasts S1x32
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S16x1x1_S16x1 : S16x1x1.ShapeCasts S16x1
  dot_S128x2048_S2048x2048_S128x2048_1_0_0_1_n_n_wf : DotDims.WF S128x2048 S2048x2048 S128x2048 [1] [0] [0] [1] [] []
  dot_S8x128_S128x2048_S8x2048_1_0_0_1_n_n_wf : DotDims.WF S8x128 S128x2048 S8x2048 [1] [0] [0] [1] [] []
  dot_S1x8_S8x32_S1x32_1_0_0_1_n_n_wf : DotDims.WF S1x8 S8x32 S1x32 [1] [0] [0] [1] [] []
  dot_S1x32_S32x16_S1x16_1_0_0_1_n_n_wf : DotDims.WF S1x32 S32x16 S1x16 [1] [0] [0] [1] [] []
  dot_S1x16_S16x1_S1x1_1_0_0_1_n_n_wf : DotDims.WF S1x16 S16x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x2048x128.size a
  hwx0_0 : ∀ i : grid0.Coords, EltTy.bits .f32 = 32 ∨ (Rect.block (s := S16x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S16x2048x2048.size a
  hwx0_1 : ∀ i : grid0.Coords, EltTy.bits .f32 = 32 ∨ (Rect.block (s := S16x2048x2048) S1x2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x8x128.size a ≤ S4x8x128.size a
  hwx0_2 : ∀ i : grid0.Coords, EltTy.bits .f32 = 32 ∨ (Rect.block (s := S4x8x128) S4x8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8.size a ≤ S8.size a
  hwx0_3 : ∀ i : grid0.Coords, EltTy.bits .f32 = 32 ∨ (Rect.block (s := S8) S8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x32.size a ≤ S8x32.size a
  hwx0_4 : ∀ i : grid0.Coords, EltTy.bits .f32 = 32 ∨ (Rect.block (s := S8x32) S8x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x16.size a ≤ S32x16.size a
  hwx0_6 : ∀ i : grid0.Coords, EltTy.bits .f32 = 32 ∨ (Rect.block (s := S32x16) S32x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16.size a ≤ S16.size a
  hwx0_7 : ∀ i : grid0.Coords, EltTy.bits .f32 = 32 ∨ (Rect.block (s := S16) S16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x1.size a ≤ S16x1.size a
  hwx0_8 : ∀ i : grid0.Coords, EltTy.bits .f32 = 32 ∨ (Rect.block (s := S16x1) S16x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1.size a ≤ S16x1x1.size a
  hwx0_10 : ∀ i : grid0.Coords, EltTy.bits .f32 = 32 ∨ (Rect.block (s := S16x1x1) S1x1x1.size (cc0_transform_10 i) (hinb0_10 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S8x128_S128x2048_S8x2048_1_0_0_1_n_n : DotDims S8x128 S128x2048 S8x2048 where
  lhsContracting := [1]
  rhsContracting := [0]
  lhsNonContracting := [0]
  rhsNonContracting := [1]
  lhsBatch := []
  rhsBatch := []
  wf := dot_S8x128_S128x2048_S8x2048_1_0_0_1_n_n_wf
def dot_S1x8_S8x32_S1x32_1_0_0_1_n_n : DotDims S1x8 S8x32 S1x32 where
  lhsContracting := [1]
  rhsContracting := [0]
  lhsNonContracting := [0]
  rhsNonContracting := [1]
  lhsBatch := []
  rhsBatch := []
  wf := dot_S1x8_S8x32_S1x32_1_0_0_1_n_n_wf
def dot_S1x32_S32x16_S1x16_1_0_0_1_n_n : DotDims S1x32 S32x16 S1x16 where
  lhsContracting := [1]
  rhsContracting := [0]
  lhsNonContracting := [0]
  rhsNonContracting := [1]
  lhsBatch := []
  rhsBatch := []
  wf := dot_S1x32_S32x16_S1x16_1_0_0_1_n_n_wf
def dot_S1x16_S16x1_S1x1_1_0_0_1_n_n : DotDims S1x16 S16x1 S1x1 where
  lhsContracting := [1]
  rhsContracting := [0]
  lhsNonContracting := [0]
  rhsNonContracting := [1]
  lhsBatch := []
  rhsBatch := []
  wf := dot_S1x16_S16x1_S1x1_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S16x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S1x1x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S4x128x8 : Shape := ⟨3, ![4, 128, 8]⟩
abbrev S8 : Shape := ⟨1, ![8]⟩
abbrev S8x32 : Shape := ⟨2, ![8, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩
abbrev S1x128x8 : Shape := ⟨3, ![1, 128, 8]⟩
abbrev S128x8 : Shape := ⟨2, ![128, 8]⟩
abbrev S16x2048x8 : Shape := ⟨3, ![16, 2048, 8]⟩
abbrev S1x1x8 : Shape := ⟨3, ![1, 1, 8]⟩
abbrev S16x8 : Shape := ⟨2, ![16, 8]⟩
abbrev S16x32 : Shape := ⟨2, ![16, 32]⟩
abbrev S1x32 : Shape := ⟨2, ![1, 32]⟩
abbrev S16x16 : Shape := ⟨2, ![16, 16]⟩
abbrev S1x16 : Shape := ⟨2, ![1, 16]⟩
abbrev S1x1 : Shape := ⟨2, ![1, 1]⟩

abbrev nBuf : Space → Nat
  | .hbm => 62
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x2048, .f32⟩
  | .hbm, ⟨2, _⟩ => ⟨S4x128x8, .f32⟩
  | .hbm, ⟨3, _⟩ => ⟨S8, .f32⟩
  | .hbm, ⟨4, _⟩ => ⟨S8x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S16x2048x128, .f32⟩
  | .hbm, ⟨11, _⟩ => ⟨S16x2048x128, .f32⟩
  | .hbm, ⟨12, _⟩ => ⟨S_, .f32⟩
  | .hbm, ⟨13, _⟩ => ⟨S16x2048x128, .f32⟩
  | .hbm, ⟨14, _⟩ => ⟨S16x2048x128, .f32⟩
  | .hbm, ⟨15, _⟩ => ⟨S16x2048x128, .f32⟩
  | .hbm, ⟨16, _⟩ => ⟨S16x2048x128, .f32⟩
  | .hbm, ⟨17, _⟩ => ⟨S_, .f32⟩
  | .hbm, ⟨18, _⟩ => ⟨S16x2048x128, .f32⟩
  | .hbm, ⟨19, _⟩ => ⟨S16x2048x128, .f32⟩
  | .hbm, ⟨20, _⟩ => ⟨S16x2048x128, .f32⟩
  | .hbm, ⟨21, _⟩ => ⟨S1x128x8, .f32⟩
  | .hbm, ⟨22, _⟩ => ⟨S128x8, .f32⟩
  | .hbm, ⟨23, _⟩ => ⟨S16x2048x8, .f32⟩
  | .hbm, ⟨24, _⟩ => ⟨S1x128x8, .f32⟩
  | .hbm, ⟨25, _⟩ => ⟨S128x8, .f32⟩
  | .hbm, ⟨26, _⟩ => ⟨S16x2048x8, .f32⟩
  | .hbm, ⟨27, _⟩ => ⟨S16x2048x8, .f32⟩
  | .hbm, ⟨28, _⟩ => ⟨S1x128x8, .f32⟩
  | .hbm, ⟨29, _⟩ => ⟨S128x8, .f32⟩
  | .hbm, ⟨30, _⟩ => ⟨S16x2048x8, .f32⟩
  | .hbm, ⟨31, _⟩ => ⟨S16x2048x8, .f32⟩
  | .hbm, ⟨32, _⟩ => ⟨S1x128x8, .f32⟩
  | .hbm, ⟨33, _⟩ => ⟨S128x8, .f32⟩
  | .hbm, ⟨34, _⟩ => ⟨S16x2048x8, .f32⟩
  | .hbm, ⟨35, _⟩ => ⟨S16x2048x8, .f32⟩
  | .hbm, ⟨36, _⟩ => ⟨S1x1x8, .f32⟩
  | .hbm, ⟨37, _⟩ => ⟨S16x2048x8, .f32⟩
  | .hbm, ⟨38, _⟩ => ⟨S16x2048x8, .f32⟩
  | .hbm, ⟨39, _⟩ => ⟨S_, .f32⟩
  | .hbm, ⟨40, _⟩ => ⟨S16x2048x8, .f32⟩
  | .hbm, ⟨41, _⟩ => ⟨S16x2048x8, .f32⟩
  | .hbm, ⟨42, _⟩ => ⟨S_, .f32⟩
  | .hbm, ⟨43, _⟩ => ⟨S16x8, .f32⟩
  | .hbm, ⟨44, _⟩ => ⟨S16x32, .f32⟩
  | .hbm, ⟨45, _⟩ => ⟨S1x32, .f32⟩
  | .hbm, ⟨46, _⟩ => ⟨S16x32, .f32⟩
  | .hbm, ⟨47, _⟩ => ⟨S16x32, .f32⟩
  | .hbm, ⟨48, _⟩ => ⟨S_, .f32⟩
  | .hbm, ⟨49, _⟩ => ⟨S16x32, .f32⟩
  | .hbm, ⟨50, _⟩ => ⟨S16x32, .f32⟩
  | .hbm, ⟨51, _⟩ => ⟨S16x16, .f32⟩
  | .hbm, ⟨52, _⟩ => ⟨S1x16, .f32⟩
  | .hbm, ⟨53, _⟩ => ⟨S16x16, .f32⟩
  | .hbm, ⟨54, _⟩ => ⟨S16x16, .f32⟩
  | .hbm, ⟨55, _⟩ => ⟨S_, .f32⟩
  | .hbm, ⟨56, _⟩ => ⟨S16x16, .f32⟩
  | .hbm, ⟨57, _⟩ => ⟨S16x16, .f32⟩
  | .hbm, ⟨58, _⟩ => ⟨S16x1, .f32⟩
  | .hbm, ⟨59, _⟩ => ⟨S1x1, .f32⟩
  | .hbm, ⟨60, _⟩ => ⟨S16x1, .f32⟩
  | .hbm, ⟨61, _⟩ => ⟨S16x1, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call1_cst : Ref sig .tc := ⟨.hbm, 48, rfl⟩
abbrev main_call1_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call2_cst : Ref sig .tc := ⟨.hbm, 55, rfl⟩
abbrev main_call2_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]

class Facts₀ : Prop where
  bcast_S_S16x2048x128 : S_.BroadcastsInDim S16x2048x128 (![] : Fin 0 → Fin S16x2048x128.rank)
  slices_S4x128x8_S1x128x8_0_0_0 : S4x128x8.Slices ![0, 0, 0] S1x128x8
  shapeCasts_S1x128x8_S128x8 : S1x128x8.ShapeCasts S128x8
  slices_S4x128x8_S1x128x8_1_0_0 : S4x128x8.Slices ![1, 0, 0] S1x128x8
  slices_S4x128x8_S1x128x8_2_0_0 : S4x128x8.Slices ![2, 0, 0] S1x128x8
  slices_S4x128x8_S1x128x8_3_0_0 : S4x128x8.Slices ![3, 0, 0] S1x128x8
  bcast_S8_S1x1x8_2 : S8.BroadcastsInDim S1x1x8 (![2] : Fin 1 → Fin S1x1x8.rank)
  bcast_S1x1x8_S16x2048x8_0_1_2 : S1x1x8.BroadcastsInDim S16x2048x8 (![0, 1, 2] : Fin 3 → Fin S16x2048x8.rank)
  bcast_S_S16x2048x8 : S_.BroadcastsInDim S16x2048x8 (![] : Fin 0 → Fin S16x2048x8.rank)
  reducesTo_S16x2048x8_S16x8_d1 : S16x2048x8.ReducesTo [1] S16x8
  h_S_ : 0 < S_.numel
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  bcast_S_S16x32 : S_.BroadcastsInDim S16x32 (![] : Fin 0 → Fin S16x32.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  dot_S16x2048x2048_S16x2048x128_S16x2048x128_2_1_1_2_0_0_wf : DotDims.WF S16x2048x2048 S16x2048x128 S16x2048x128 [2] [1] [1] [2] [0] [0]
  dot_S16x2048x128_S128x8_S16x2048x8_2_0_01_1_n_n_wf : DotDims.WF S16x2048x128 S128x8 S16x2048x8 [2] [0] [0, 1] [1] [] []
  dot_S16x8_S8x32_S16x32_1_0_0_1_n_n_wf : DotDims.WF S16x8 S8x32 S16x32 [1] [0] [0] [1] [] []
  dot_S16x32_S32x16_S16x16_1_0_0_1_n_n_wf : DotDims.WF S16x32 S32x16 S16x16 [1] [0] [0] [1] [] []
  dot_S16x16_S16x1_S16x1_1_0_0_1_n_n_wf : DotDims.WF S16x16 S16x1 S16x1 [1] [0] [0] [1] [] []

variable [Facts₀]

def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf
def dot_S16x2048x128_S128x8_S16x2048x8_2_0_01_1_n_n : DotDims S16x2048x128 S128x8 S16x2048x8 where
  lhsContracting := [2]
  rhsContracting := [0]
  lhsNonContracting := [0, 1]
  rhsNonContracting := [1]
  lhsBatch := []
  rhsBatch := []
  wf := dot_S16x2048x128_S128x8_S16x2048x8_2_0_01_1_n_n_wf
def dot_S16x8_S8x32_S16x32_1_0_0_1_n_n : DotDims S16x8 S8x32 S16x32 where
  lhsContracting := [1]
  rhsContracting := [0]
  lhsNonContracting := [0]
  rhsNonContracting := [1]
  lhsBatch := []
  rhsBatch := []
  wf := dot_S16x8_S8x32_S16x32_1_0_0_1_n_n_wf
def dot_S16x32_S32x16_S16x16_1_0_0_1_n_n : DotDims S16x32 S32x16 S16x16 where
  lhsContracting := [1]
  rhsContracting := [0]
  lhsNonContracting := [0]
  rhsNonContracting := [1]
  lhsBatch := []
  rhsBatch := []
  wf := dot_S16x32_S32x16_S16x16_1_0_0_1_n_n_wf
def dot_S16x16_S16x1_S16x1_1_0_0_1_n_n : DotDims S16x16 S16x1 S16x1 where
  lhsContracting := [1]
  rhsContracting := [0]
  lhsNonContracting := [0]
  rhsNonContracting := [1]
  lhsBatch := []
  rhsBatch := []
  wf := dot_S16x16_S16x1_S16x1_1_0_0_1_n_n_wf

class Facts : Prop extends Facts₀ where

variable [Facts]
-- ==== Proof.Spec.lean ====
/-
  The function both programs compute for ONE graph of the batch, on the extended reals.

  For node features `x` (2048 nodes, 128 features) and a square operator `a` on the nodes, the Chebyshev terms are
  `T₀ = x`, `T₁ = a·x`, `T₂ = 2·(a·T₁) − T₀`, `T₃ = 2·(a·T₂) − T₁`.  Each term is projected to 8 channels by its own
  weight matrix, the four projections are added from the left, the channel bias is added, and negative entries are
  cut to zero; the result is summed over the nodes, and the 8 channel sums go through three dense layers
  (8 → 32 → 16 → 1), the first two cut at zero.

  Every sum is a finite sum over a whole axis, so neither the order of its terms nor the way a program tiles or
  transposes its operands is visible here.  The factor 2 is kept as the word both programs print for it.
-/
import Idealize.ShloMosaic.PureOps.Ideal
import Idealize.ShloMosaic.Lib.ValueIdx

noncomputable section

open scoped BigOperators

namespace Cert.Cheb

open Idealize.ShloMosaic

/-- The word of the factor 2 of the recurrence, read on the extended reals. -/
abbrev two : EReal := Ideal.ofBits .f32 0x40000000#32

variable (x : Fin 2048 → Fin 128 → EReal) (a : Fin 2048 → Fin 2048 → EReal)

/-- `T₁ = a·x` at node `n` and feature `f`. -/
def t1 (n : Fin 2048) (f : Fin 128) : EReal := ∑ j : Fin 2048, a n j * x j f

/-- `T₂ = 2·(a·T₁) − x`. -/
def t2 (n : Fin 2048) (f : Fin 128) : EReal := two * (∑ j : Fin 2048, a n j * t1 x a j f) - x n f

/-- `T₃ = 2·(a·T₂) − T₁`. -/
def t3 (n : Fin 2048) (f : Fin 128) : EReal := two * (∑ j : Fin 2048, a n j * t2 x a j f) - t1 x a n f

variable (w : Fin 4 → Fin 128 → Fin 8 → EReal) (cb : Fin 8 → EReal)

/-- The hidden activation at node `n` and channel `c`: the four projections added from the left, the bias, the cut at zero. -/
def hid (n : Fin 2048) (c : Fin 8) : EReal :=
  max (((((∑ f : Fin 128, x n f * w 0 f c) + ∑ f : Fin 128, t1 x a n f * w 1 f c)
      + ∑ f : Fin 128, t2 x a n f * w 2 f c) + ∑ f : Fin 128, t3 x a n f * w 3 f c) + cb c) 0

/-- The hidden activations summed over the nodes. -/
def pooled (c : Fin 8) : EReal := ∑ n : Fin 2048, hid x a w cb n c

variable (w1 : Fin 8 → Fin 32 → EReal) (b1 : Fin 32 → EReal) (w2 : Fin 32 → Fin 16 → EReal) (b2 : Fin 16 → EReal)
  (w3 : Fin 16 → EReal) (b3 : EReal)

/-- The first dense layer, cut at zero. -/
def o1 (j : Fin 32) : EReal := max ((∑ c : Fin 8, pooled x a w cb c * w1 c j) + b1 j) 0

/-- The second dense layer, cut at zero. -/
def o2 (j : Fin 16) : EReal := max ((∑ k : Fin 32, o1 x a w cb w1 b1 k * w2 k j) + b2 j) 0

/-- The graph's one output. -/
def head : EReal := (∑ k : Fin 16, o2 x a w cb w1 b1 w2 b2 k * w3 k) + b3

/-- The whole result over the ten argument arrays: entry `(b, 0)` is the output of graph `b`, computed from graph `b`'s
    slices of the node features and of the operator and from the shared weights. -/
def result (X0 : (⟨3, ![16, 2048, 128]⟩ : Shape).Idx → EReal) (X1 : (⟨3, ![16, 2048, 2048]⟩ : Shape).Idx → EReal)
    (X2 : (⟨3, ![4, 128, 8]⟩ : Shape).Idx → EReal) (X3 : (⟨1, ![8]⟩ : Shape).Idx → EReal)
    (X4 : (⟨2, ![8, 32]⟩ : Shape).Idx → EReal) (X5 : (⟨1, ![32]⟩ : Shape).Idx → EReal)
    (X6 : (⟨2, ![32, 16]⟩ : Shape).Idx → EReal) (X7 : (⟨1, ![16]⟩ : Shape).Idx → EReal)
    (X8 : (⟨2, ![16, 1]⟩ : Shape).Idx → EReal) (X9 : (⟨1, ![1]⟩ : Shape).Idx → EReal) :
    (⟨2, ![16, 1]⟩ : Shape).Idx → EReal :=
  fun i => head (fun n f => X0 (ValueIdx.ix3 (⟨(i 0).val, (i 0).isLt⟩ : Fin 16) n f))
    (fun n j => X1 (ValueIdx.ix3 (⟨(i 0).val, (i 0).isLt⟩ : Fin 16) n j)) (fun k f c => X2 (ValueIdx.ix3 k f c))
    (fun c => X3 (ValueIdx.ix1 c)) (fun c j => X4 (ValueIdx.ix2 c j)) (fun j => X5 (ValueIdx.ix1 j))
    (fun k j => X6 (ValueIdx.ix2 k j)) (fun j => X7 (ValueIdx.ix1 j)) (fun k => X8 (ValueIdx.ix2 k (0 : Fin 1)))
    (X9 (ValueIdx.ix1 (0 : Fin 1)))

end Cert.Cheb

end
-- ==== Proof.RefSide.lean ====
/-
  The reference's result, read one graph at a time.

  Entry `(b, 0)` of the reference's result is the function `Cert.Cheb.head` of graph `b`'s slices of the node features
  and of the operator, and of the shared weights: each batched product of the reference is, at batch `b`, the plain sum of
  the specification, each broadcast bias is the bias entry, and the sum over the nodes starts from the zero word.
-/
import proofs.«114296_j4509715660893_2_alg».proof.Proof.Gen.ReferenceIdeal.Read
import proofs.«114296_j4509715660893_2_alg».proof.Proof.Spec

noncomputable section

open scoped BigOperators

namespace Cert.RefSide

open Cert.ReferenceIdeal Cert.ReferenceIdeal.Gen Cert.ReferenceIdeal.Read Idealize.ShloMosaic Idealize.ShloMosaic.ValueIdx

/-! ## The Chebyshev terms

Each batched product of the reference reads, at batch `b`, row `n` of the operator against column `f` of its right
operand: the index of the left operand is `(b, n, k)` and that of the right one `(b, k, f)`. -/

section Terms

variable (X0 : (⟨S16x2048x128, .f32⟩ : BufTy).Contents (Elt Ideal)) (X1 : (⟨S16x2048x2048, .f32⟩ : BufTy).Contents (Elt Ideal))

/-- The first product is `T₁ = a·x` of graph `b`. -/
theorem v0_eq (b : Fin 16) (n : Fin 2048) (f : Fin 128) :
    val_main_v0 (F := Ideal) X0 X1 (ix3 b n f)
      = Cert.Cheb.t1 (fun n f => X0 (ix3 b n f)) (fun n j => X1 (ix3 b n j)) n f := by
  rw [val_main_v0_apply]
  unfold Cert.Cheb.t1
  refine Finset.sum_congr rfl fun k _ => ?_
  have hl : lidx_main_v0 (ix3 b n f) k = ix3 b n k :=
    funext fun a => Fin.ext (by match a with | ⟨0, _⟩ => rfl | ⟨1, _⟩ => rfl | ⟨2, _⟩ => rfl)
  have hr : ridx_main_v0 (ix3 b n f) k = ix3 b k f :=
    funext fun a => Fin.ext (by match a with | ⟨0, _⟩ => rfl | ⟨1, _⟩ => rfl | ⟨2, _⟩ => rfl)
  rw [hl, hr]

/-- The second product is `a·T₁` of graph `b`. -/
theorem v1_eq (b : Fin 16) (n : Fin 2048) (f : Fin 128) :
    val_main_v1 (F := Ideal) X0 X1 (ix3 b n f)
      = ∑ j : Fin 2048, X1 (ix3 b n j) * Cert.Cheb.t1 (fun n f => X0 (ix3 b n f)) (fun n j => X1 (ix3 b n j)) j f := by
  rw [val_main_v1_apply]
  refine Finset.sum_congr rfl fun k _ => ?_
  have hl : lidx_main_v1 (ix3 b n f) k = ix3 b n k :=
    funext fun a => Fin.ext (by match a with | ⟨0, _⟩ => rfl | ⟨1, _⟩ => rfl | ⟨2, _⟩ => rfl)
  have hr : ridx_main_v1 (ix3 b n f) k = ix3 b k f :=
    funext fun a => Fin.ext (by match a with | ⟨0, _⟩ => rfl | ⟨1, _⟩ => rfl | ⟨2, _⟩ => rfl)
  rw [hl, hr, v0_eq]

/-- Twice the second product less the features is `T₂`; the factor is the word the reference broadcasts. -/
theorem v4_eq (b : Fin 16) (n : Fin 2048) (f : Fin 128) :
    val_main_v4 (F := Ideal) X0 X1 (ix3 b n f)
      = Cert.Cheb.t2 (fun n f => X0 (ix3 b n f)) (fun n j => X1 (ix3 b n j)) n f := by
  rw [val_main_v4_apply, val_main_v3_apply, val_main_v2_apply, val_main_cst_apply, v1_eq]
  simp only [Ideal.subf_def, Ideal.mulf_def, Ideal.ofBits_def]
  unfold Cert.Cheb.t2
  rfl

/-- The third product is `a·T₂` of graph `b`. -/
theorem v5_eq (b : Fin 16) (n : Fin 2048) (f : Fin 128) :
    val_main_v5 (F := Ideal) X0 X1 (ix3 b n f)
      = ∑ j : Fin 2048, X1 (ix3 b n j) * Cert.Cheb.t2 (fun n f => X0 (ix3 b n f)) (fun n j => X1 (ix3 b n j)) j f := by
  rw [val_main_v5_apply]
  refine Finset.sum_congr rfl fun k _ => ?_
  have hl : lidx_main_v5 (ix3 b n f) k = ix3 b n k :=
    funext fun a => Fin.ext (by match a with | ⟨0, _⟩ => rfl | ⟨1, _⟩ => rfl | ⟨2, _⟩ => rfl)
  have hr : ridx_main_v5 (ix3 b n f) k = ix3 b k f :=
    funext fun a => Fin.ext (by match a with | ⟨0, _⟩ => rfl | ⟨1, _⟩ => rfl | ⟨2, _⟩ => rfl)
  rw [hl, hr, v4_eq]

/-- Twice the third product less `T₁` is `T₃`. -/
theorem v8_eq (b : Fin 16) (n : Fin 2048) (f : Fin 128) :
    val_main_v8 (F := Ideal) X0 X1 (ix3 b n f)
      = Cert.Cheb.t3 (fun n f => X0 (ix3 b n f)) (fun n j => X1 (ix3 b n j)) n f := by
  rw [val_main_v8_apply, val_main_v7_apply, val_main_v6_apply, val_main_cst_0_apply, v5_eq, v0_eq]
  simp only [Ideal.subf_def, Ideal.mulf_def, Ideal.ofBits_def]
  unfold Cert.Cheb.t3
  rfl

end Terms

/-! ## The four projections

Matrix `k` of the weights reaches its product through a slice `[k:k+1]` of the first axis and a reshape that drops the
unit axis; the row-major position `f·8 + c` of entry `(f, c)` splits back into `(0, f, c)`. -/

section Weights

variable (X2 : (⟨S4x128x8, .f32⟩ : BufTy).Contents (Elt Ideal))

/-- Matrix `0` of the weights, through its slice and the removal of the unit axis: entry `(f, c)` is `w 0 f c`. -/
theorem w0_idx (f : Fin 128) (c : Fin 8) : idx_main_v9 (idx_main_v10 (ix2 f c)) = ix3 (0 : Fin 4) f c :=
  funext fun a => Fin.ext (by
    have hf := f.isLt
    have hc := c.isLt
    match a with
    | ⟨0, _⟩ => rfl
    | ⟨1, _⟩ => show (f.val * 8 + c.val) / 8 % 128 = f.val; omega
    | ⟨2, _⟩ => show (f.val * 8 + c.val) % 8 = c.val; omega)

theorem v10_eq (f : Fin 128) (c : Fin 8) : val_main_v10 (F := Ideal) X2 (ix2 f c) = X2 (ix3 (0 : Fin 4) f c) := by
  rw [val_main_v10_apply, val_main_v9_apply, w0_idx]

/-- Matrix `1` of the weights, through its slice and the removal of the unit axis: entry `(f, c)` is `w 1 f c`. -/
theorem w1_idx (f : Fin 128) (c : Fin 8) : idx_main_v12 (idx_main_v13 (ix2 f c)) = ix3 (1 : Fin 4) f c :=
  funext fun a => Fin.ext (by
    have hf := f.isLt
    have hc := c.isLt
    match a with
    | ⟨0, _⟩ => rfl
    | ⟨1, _⟩ => show (f.val * 8 + c.val) / 8 % 128 = f.val; omega
    | ⟨2, _⟩ => show (f.val * 8 + c.val) % 8 = c.val; omega)

theorem v13_eq (f : Fin 128) (c : Fin 8) : val_main_v13 (F := Ideal) X2 (ix2 f c) = X2 (ix3 (1 : Fin 4) f c) := by
  rw [val_main_v13_apply, val_main_v12_apply, w1_idx]

/-- Matrix `2` of the weights, through its slice and the removal of the unit axis: entry `(f, c)` is `w 2 f c`. -/
theorem w2_idx (f : Fin 128) (c : Fin 8) : idx_main_v16 (idx_main_v17 (ix2 f c)) = ix3 (2 : Fin 4) f c :=
  funext fun a => Fin.ext (by
    have hf := f.isLt
    have hc := c.isLt
    match a with
    | ⟨0, _⟩ => rfl
    | ⟨1, _⟩ => show (f.val * 8 + c.val) / 8 % 128 = f.val; omega
    | ⟨2, _⟩ => show (f.val * 8 + c.val) % 8 = c.val; omega)

theorem v17_eq (f : Fin 128) (c : Fin 8) : val_main_v17 (F := Ideal) X2 (ix2 f c) = X2 (ix3 (2 : Fin 4) f c) := by
  rw [val_main_v17_apply, val_main_v16_apply, w2_idx]

/-- Matrix `3` of the weights, through its slice and the removal of the unit axis: entry `(f, c)` is `w 3 f c`. -/
theorem w3_idx (f : Fin 128) (c : Fin 8) : idx_main_v20 (idx_main_v21 (ix2 f c)) = ix3 (3 : Fin 4) f c :=
  funext fun a => Fin.ext (by
    have hf := f.isLt
    have hc := c.isLt
    match a with
    | ⟨0, _⟩ => rfl
    | ⟨1, _⟩ => show (f.val * 8 + c.val) / 8 % 128 = f.val; omega
    | ⟨2, _⟩ => show (f.val * 8 + c.val) % 8 = c.val; omega)

theorem v21_eq (f : Fin 128) (c : Fin 8) : val_main_v21 (F := Ideal) X2 (ix2 f c) = X2 (ix3 (3 : Fin 4) f c) := by
  rw [val_main_v21_apply, val_main_v20_apply, w3_idx]

end Weights

section Hidden

variable (X0 : (⟨S16x2048x128, .f32⟩ : BufTy).Contents (Elt Ideal)) (X1 : (⟨S16x2048x2048, .f32⟩ : BufTy).Contents (Elt Ideal))
  (X2 : (⟨S4x128x8, .f32⟩ : BufTy).Contents (Elt Ideal)) (X3 : (⟨S8, .f32⟩ : BufTy).Contents (Elt Ideal))

/-- The projection of `T₀ = x` by matrix 0: the sum over the features `f` at node `n` and channel `c`. -/
theorem v11_eq (b : Fin 16) (n : Fin 2048) (c : Fin 8) :
    val_main_v11 (F := Ideal) X0 X2 (ix3 b n c)
      = ∑ f : Fin 128, X0 (ix3 b n f) * X2 (ix3 (0 : Fin 4) f c) := by
  rw [val_main_v11_apply]
  refine Finset.sum_congr rfl fun k _ => ?_
  have hl : lidx_main_v11 (ix3 b n c) k = ix3 b n k :=
    funext fun a => Fin.ext (by match a with | ⟨0, _⟩ => rfl | ⟨1, _⟩ => rfl | ⟨2, _⟩ => rfl)
  have hr : ridx_main_v11 (ix3 b n c) k = ix2 k c :=
    funext fun a => Fin.ext (by match a with | ⟨0, _⟩ => rfl | ⟨1, _⟩ => rfl)
  rw [hl, hr, v10_eq]

/-- The projection of `T₁` by matrix 1. -/
theorem v14_eq (b : Fin 16) (n : Fin 2048) (c : Fin 8) :
    val_main_v14 (F := Ideal) X0 X1 X2 (ix3 b n c)
      = ∑ f : Fin 128, Cert.Cheb.t1 (fun n f => X0 (ix3 b n f)) (fun n j => X1 (ix3 b n j)) n f * X2 (ix3 (1 : Fin 4) f c) := by
  rw [val_main_v14_apply]
  refine Finset.sum_congr rfl fun k _ => ?_
  have hl : lidx_main_v14 (ix3 b n c) k = ix3 b n k :=
    funext fun a => Fin.ext (by match a with | ⟨0, _⟩ => rfl | ⟨1, _⟩ => rfl | ⟨2, _⟩ => rfl)
  have hr : ridx_main_v14 (ix3 b n c) k = ix2 k c :=
    funext fun a => Fin.ext (by match a with | ⟨0, _⟩ => rfl | ⟨1, _⟩ => rfl)
  rw [hl, hr, v13_eq, v0_eq]

/-- The projection of `T₂` by matrix 2. -/
theorem v18_eq (b : Fin 16) (n : Fin 2048) (c : Fin 8) :
    val_main_v18 (F := Ideal) X0 X1 X2 (ix3 b n c)
      = ∑ f : Fin 128, Cert.Cheb.t2 (fun n f => X0 (ix3 b n f)) (fun n j => X1 (ix3 b n j)) n f * X2 (ix3 (2 : Fin 4) f c) := by
  rw [val_main_v18_apply]
  refine Finset.sum_congr rfl fun k _ => ?_
  have hl : lidx_main_v18 (ix3 b n c) k = ix3 b n k :=
    funext fun a => Fin.ext (by match a with | ⟨0, _⟩ => rfl | ⟨1, _⟩ => rfl | ⟨2, _⟩ => rfl)
  have hr : ridx_main_v18 (ix3 b n c) k = ix2 k c :=
    funext fun a => Fin.ext (by match a with | ⟨0, _⟩ => rfl | ⟨1, _⟩ => rfl)
  rw [hl, hr, v17_eq, v4_eq]

/-- The projection of `T₃` by matrix 3. -/
theorem v22_eq (b : Fin 16) (n : Fin 2048) (c : Fin 8) :
    val_main_v22 (F := Ideal) X0 X1 X2 (ix3 b n c)
      = ∑ f : Fin 128, Cert.Cheb.t3 (fun n f => X0 (ix3 b n f)) (fun n j => X1 (ix3 b n j)) n f * X2 (ix3 (3 : Fin 4) f c) := by
  rw [val_main_v22_apply]
  refine Finset.sum_congr rfl fun k _ => ?_
  have hl : lidx_main_v22 (ix3 b n c) k = ix3 b n k :=
    funext fun a => Fin.ext (by match a with | ⟨0, _⟩ => rfl | ⟨1, _⟩ => rfl | ⟨2, _⟩ => rfl)
  have hr : ridx_main_v22 (ix3 b n c) k = ix2 k c :=
    funext fun a => Fin.ext (by match a with | ⟨0, _⟩ => rfl | ⟨1, _⟩ => rfl)
  rw [hl, hr, v21_eq, v8_eq]

/-- The bias, broadcast first to `1×1×8` and then over graphs and nodes, is read at its channel. -/
theorem bias_idx (b : Fin 16) (n : Fin 2048) (c : Fin 8) : idx_main_v24 (idx_main_v25 (ix3 b n c)) = ix1 c :=
  funext fun a => Fin.ext (by match a with | ⟨0, _⟩ => rfl)

/-- The four projections added from the left, the bias, and the cut at zero (the zero word is `0`): the hidden
    activation of graph `b` at node `n` and channel `c`. -/
theorem v27_eq (b : Fin 16) (n : Fin 2048) (c : Fin 8) :
    val_main_v27 (F := Ideal) X0 X1 X2 X3 (ix3 b n c)
      = Cert.Cheb.hid (fun n f => X0 (ix3 b n f)) (fun n j => X1 (ix3 b n j)) (fun k f c => X2 (ix3 k f c)) (fun c => X3 (ix1 c)) n c := by
  rw [val_main_v27_apply, val_main_v26_apply, val_main_v23_apply, val_main_v19_apply, val_main_v15_apply,
    v11_eq, v14_eq, v18_eq, v22_eq, val_main_v25_apply, val_main_v24_apply, bias_idx,
    val_main_call0_v0_apply, val_main_call0_cst_apply]
  simp only [Ideal.addf_def, Ideal.maximumf_def, Ideal.ofBits_def, Ideal.ofBits_zero_f32]
  unfold Cert.Cheb.hid
  rfl

/-- The sum over the nodes starts from the zero word, which is `0`: channel `c` of the pooled activations of graph `b`. -/
theorem v28_eq (b : Fin 16) (c : Fin 8) :
    val_main_v28 (F := Ideal) X0 X1 X2 X3 (ix2 b c)
      = Cert.Cheb.pooled (fun n f => X0 (ix3 b n f)) (fun n j => X1 (ix3 b n j)) (fun k f c => X2 (ix3 k f c)) (fun c => X3 (ix1 c)) c := by
  rw [val_main_v28_apply, val_main_cst_1_apply]
  simp only [Ideal.ofBits_def, Ideal.ofBits_zero_f32, zero_add]
  unfold Cert.Cheb.pooled
  refine Finset.sum_congr rfl fun k _ => ?_
  have hi : idx_main_v28 (ix2 b c) k = ix3 b k c :=
    funext fun a => Fin.ext (by match a with | ⟨0, _⟩ => rfl | ⟨1, _⟩ => rfl | ⟨2, _⟩ => rfl)
  rw [hi, v27_eq]

end Hidden

/-! ## The three dense layers

Each layer is a plain product of graph `b`'s row with the layer's matrix, its bias broadcast first to one row and then
over the graphs; the first two are cut at the zero word, which is `0`. -/

section Dense

variable (X0 : (⟨S16x2048x128, .f32⟩ : BufTy).Contents (Elt Ideal)) (X1 : (⟨S16x2048x2048, .f32⟩ : BufTy).Contents (Elt Ideal)) (X2 : (⟨S4x128x8, .f32⟩ : BufTy).Contents (Elt Ideal)) (X3 : (⟨S8, .f32⟩ : BufTy).Contents (Elt Ideal)) (X4 : (⟨S8x32, .f32⟩ : BufTy).Contents (Elt Ideal))
  (X5 : (⟨S32, .f32⟩ : BufTy).Contents (Elt Ideal)) (X6 : (⟨S32x16, .f32⟩ : BufTy).Contents (Elt Ideal)) (X7 : (⟨S16, .f32⟩ : BufTy).Contents (Elt Ideal)) (X8 : (⟨S16x1, .f32⟩ : BufTy).Contents (Elt Ideal)) (X9 : (⟨S1, .f32⟩ : BufTy).Contents (Elt Ideal))

/-- The first layer's bias is read at its column. -/
theorem b1_idx (b : Fin 16) (j : Fin 32) : idx_main_v30 (idx_main_v31 (ix2 b j)) = ix1 j :=
  funext fun a => Fin.ext (by match a with | ⟨0, _⟩ => rfl)

/-- The first dense layer of graph `b`, cut at zero. -/
theorem v33_eq (b : Fin 16) (j : Fin 32) :
    val_main_v33 (F := Ideal) X0 X1 X2 X3 X4 X5 (ix2 b j)
      = Cert.Cheb.o1 (fun n f => X0 (ix3 b n f)) (fun n j => X1 (ix3 b n j)) (fun k f c => X2 (ix3 k f c)) (fun c => X3 (ix1 c))
        (fun c j => X4 (ix2 c j)) (fun j => X5 (ix1 j)) j := by
  have hp : val_main_v29 (F := Ideal) X0 X1 X2 X3 X4 (ix2 b j)
      = ∑ c : Fin 8, Cert.Cheb.pooled (fun n f => X0 (ix3 b n f)) (fun n j => X1 (ix3 b n j)) (fun k f c => X2 (ix3 k f c)) (fun c => X3 (ix1 c)) c * X4 (ix2 c j) := by
    rw [val_main_v29_apply]
    refine Finset.sum_congr rfl fun k _ => ?_
    have hl : lidx_main_v29 (ix2 b j) k = ix2 b k :=
      funext fun a => Fin.ext (by match a with | ⟨0, _⟩ => rfl | ⟨1, _⟩ => rfl)
    have hr : ridx_main_v29 (ix2 b j) k = ix2 k j :=
      funext fun a => Fin.ext (by match a with | ⟨0, _⟩ => rfl | ⟨1, _⟩ => rfl)
    rw [hl, hr, v28_eq]
  rw [val_main_v33_apply, val_main_v32_apply, hp, val_main_v31_apply, val_main_v30_apply, b1_idx,
    val_main_call1_v0_apply, val_main_call1_cst_apply]
  simp only [Ideal.addf_def, Ideal.maximumf_def, Ideal.ofBits_def, Ideal.ofBits_zero_f32]
  unfold Cert.Cheb.o1
  rfl

/-- The second layer's bias is read at its column. -/
theorem b2_idx (b : Fin 16) (j : Fin 16) : idx_main_v35 (idx_main_v36 (ix2 b j)) = ix1 j :=
  funext fun a => Fin.ext (by match a with | ⟨0, _⟩ => rfl)

/-- The second dense layer of graph `b`, cut at zero. -/
theorem v38_eq (b : Fin 16) (j : Fin 16) :
    val_main_v38 (F := Ideal) X0 X1 X2 X3 X4 X5 X6 X7 (ix2 b j)
      = Cert.Cheb.o2 (fun n f => X0 (ix3 b n f)) (fun n j => X1 (ix3 b n j)) (fun k f c => X2 (ix3 k f c)) (fun c => X3 (ix1 c))
        (fun c j => X4 (ix2 c j)) (fun j => X5 (ix1 j)) (fun k j => X6 (ix2 k j)) (fun j => X7 (ix1 j)) j := by
  have hp : val_main_v34 (F := Ideal) X0 X1 X2 X3 X4 X5 X6 (ix2 b j)
      = ∑ k : Fin 32, Cert.Cheb.o1 (fun n f => X0 (ix3 b n f)) (fun n j => X1 (ix3 b n j)) (fun k f c => X2 (ix3 k f c)) (fun c => X3 (ix1 c))
          (fun c j => X4 (ix2 c j)) (fun j => X5 (ix1 j)) k * X6 (ix2 k j) := by
    rw [val_main_v34_apply]
    refine Finset.sum_congr rfl fun k _ => ?_
    have hl : lidx_main_v34 (ix2 b j) k = ix2 b k :=
      funext fun a => Fin.ext (by match a with | ⟨0, _⟩ => rfl | ⟨1, _⟩ => rfl)
    have hr : ridx_main_v34 (ix2 b j) k = ix2 k j :=
      funext fun a => Fin.ext (by match a with | ⟨0, _⟩ => rfl | ⟨1, _⟩ => rfl)
    rw [hl, hr, v33_eq]
  rw [val_main_v38_apply, val_main_v37_apply, hp, val_main_v36_apply, val_main_v35_apply, b2_idx,
    val_main_call2_v0_apply, val_main_call2_cst_apply]
  simp only [Ideal.addf_def, Ideal.maximumf_def, Ideal.ofBits_def, Ideal.ofBits_zero_f32]
  unfold Cert.Cheb.o2
  rfl

/-- The last layer's bias has one entry, read at `0` whatever the graph. -/
theorem b3_idx (b : Fin 16) (u : Fin 1) : idx_main_v40 (idx_main_v41 (ix2 b u)) = ix1 (0 : Fin 1) :=
  funext fun a => Fin.ext (by match a with | ⟨0, _⟩ => rfl)

/-- The last layer of graph `b`: the one output column is column `0`. -/
theorem v42_eq (b : Fin 16) :
    val_main_v42 (F := Ideal) X0 X1 X2 X3 X4 X5 X6 X7 X8 X9 (ix2 b (0 : Fin 1))
      = Cert.Cheb.head (fun n f => X0 (ix3 b n f)) (fun n j => X1 (ix3 b n j)) (fun k f c => X2 (ix3 k f c)) (fun c => X3 (ix1 c))
        (fun c j => X4 (ix2 c j)) (fun j => X5 (ix1 j)) (fun k j => X6 (ix2 k j)) (fun j => X7 (ix1 j))
        (fun k => X8 (ix2 k (0 : Fin 1))) (X9 (ix1 (0 : Fin 1))) := by
  have hp : val_main_v39 (F := Ideal) X0 X1 X2 X3 X4 X5 X6 X7 X8 (ix2 b (0 : Fin 1))
      = ∑ k : Fin 16, Cert.Cheb.o2 (fun n f => X0 (ix3 b n f)) (fun n j => X1 (ix3 b n j)) (fun k f c => X2 (ix3 k f c)) (fun c => X3 (ix1 c))
          (fun c j => X4 (ix2 c j)) (fun j => X5 (ix1 j)) (fun k j => X6 (ix2 k j)) (fun j => X7 (ix1 j)) k * X8 (ix2 k (0 : Fin 1)) := by
    rw [val_main_v39_apply]
    refine Finset.sum_congr rfl fun k _ => ?_
    have hl : lidx_main_v39 (ix2 b (0 : Fin 1)) k = ix2 b k :=
      funext fun a => Fin.ext (by match a with | ⟨0, _⟩ => rfl | ⟨1, _⟩ => rfl)
    have hr : ridx_main_v39 (ix2 b (0 : Fin 1)) k = ix2 k (0 : Fin 1) :=
      funext fun a => Fin.ext (by match a with | ⟨0, _⟩ => rfl | ⟨1, _⟩ => rfl)
    rw [hl, hr, v38_eq]
  rw [val_main_v42_apply, hp, val_main_v41_apply, val_main_v40_apply, b3_idx]
  simp only [Ideal.addf_def]
  unfold Cert.Cheb.head
  rfl

end Dense

/-- Entry `(b, u)` of the reference's result is the specification's output for graph `b`. -/
theorem ref_eq (X0 : (⟨S16x2048x128, .f32⟩ : BufTy).Contents (Elt Ideal)) (X1 : (⟨S16x2048x2048, .f32⟩ : BufTy).Contents (Elt Ideal))
    (X2 : (⟨S4x128x8, .f32⟩ : BufTy).Contents (Elt Ideal)) (X3 : (⟨S8, .f32⟩ : BufTy).Contents (Elt Ideal))
    (X4 : (⟨S8x32, .f32⟩ : BufTy).Contents (Elt Ideal)) (X5 : (⟨S32, .f32⟩ : BufTy).Contents (Elt Ideal))
    (X6 : (⟨S32x16, .f32⟩ : BufTy).Contents (Elt Ideal)) (X7 : (⟨S16, .f32⟩ : BufTy).Contents (Elt Ideal))
    (X8 : (⟨S16x1, .f32⟩ : BufTy).Contents (Elt Ideal)) (X9 : (⟨S1, .f32⟩ : BufTy).Contents (Elt Ideal)) (b : Fin 16) (u : Fin 1) :
    val_main_v42 (F := Ideal) X0 X1 X2 X3 X4 X5 X6 X7 X8 X9 (ix2 b u)
      = Cert.Cheb.head (fun n f => X0 (ix3 b n f)) (fun n j => X1 (ix3 b n j)) (fun k f c => X2 (ix3 k f c)) (fun c => X3 (ix1 c))
        (fun c j => X4 (ix2 c j)) (fun j => X5 (ix1 j)) (fun k j => X6 (ix2 k j)) (fun j => X7 (ix1 j))
        (fun k => X8 (ix2 k (0 : Fin 1))) (X9 (ix1 (0 : Fin 1))) := by
  obtain rfl : u = 0 := Subsingleton.elim _ _
  exact v42_eq X0 X1 X2 X3 X4 X5 X6 X7 X8 X9 b

end Cert.RefSide

end
-- ==== Proof.Scratch.lean ====
/-
  The operator block, cast and transposed tile by tile into the scratch buffer, read back as ONE array.

  The body cuts the operator block `a` (one graph: 2048 × 2048) into four slabs of 512 rows, transposes each slab
  and stores it as 512 COLUMNS of the scratch buffer; a change of float format is the identity on the extended reals.
  So column `o + q` of the scratch holds row `o + q` of `a`: the scratch, read whole after the four stores, is
  `aT[k, n] = a[n, k]`, whatever it held before.
-/
import proofs.«114296_j4509715660893_2_alg».proof.Proof.Gen.KernelIdeal.Skeleton
import Idealize.ShloMosaic.Lib.Pipeline.Value
import Idealize.ShloMosaic.Lib.ValueLayout
import Idealize.ShloMosaic.Lib.Ring
import Idealize.ShloMosaic.Lib.Tactic

set_option maxRecDepth 16384

noncomputable section

namespace Cert.KernelIdeal.Scratch

open Idealize.ShloMosaic Idealize.ShloMosaic.ValueIdx Idealize.ShloMosaic.Tactic Cert.KernelIdeal Cert.KernelIdeal.Gen

/-- The operator block transposed: entry `(k, n)` is the block's entry `(n, k)`. -/
def aT (x1 : Vec Ideal S1x2048x2048 .f32) : FVec Ideal S2048x2048 .bf16 :=
  fun j => x1 (ix3 (0 : Fin 1) ⟨(j 1).val, (j 1).isLt⟩ ⟨(j 0).val, (j 0).isLt⟩)

theorem aT_apply (x1 : Vec Ideal S1x2048x2048 .f32) (k n : Fin 2048) : aT x1 (ix2 k n) = x1 (ix3 (0 : Fin 1) n k) := rfl

/-! Each tile's payload at `(p, q)` is the loaded slab at `(q, p)`: a cast that drops the unit axis, a change of
format, a transpose, a cast to the same shape. -/

theorem tile_pay2 (v0 : Vec Ideal S1x512x2048 .f32) (p : Fin 2048) (q : Fin 512) :
    k0_pay2 (F := Ideal) v0 (ix2 p q) = v0 (ix3 (0 : Fin 1) q p) := by
  unfold k0_pay2
  refine (congrFun (shapeCast_self _ _) _).trans ?_
  refine (transpose_ix2_apply _ _ p q).trans ?_
  exact shapeCast_1ab_ab_apply v0 _ q p

theorem tile_pay3 (v0 : Vec Ideal S1x512x2048 .f32) (p : Fin 2048) (q : Fin 512) :
    k0_pay3 (F := Ideal) v0 (ix2 p q) = v0 (ix3 (0 : Fin 1) q p) := by
  unfold k0_pay3
  refine (congrFun (shapeCast_self _ _) _).trans ?_
  refine (transpose_ix2_apply _ _ p q).trans ?_
  exact shapeCast_1ab_ab_apply v0 _ q p

theorem tile_pay4 (v0 : Vec Ideal S1x512x2048 .f32) (p : Fin 2048) (q : Fin 512) :
    k0_pay4 (F := Ideal) v0 (ix2 p q) = v0 (ix3 (0 : Fin 1) q p) := by
  unfold k0_pay4
  refine (congrFun (shapeCast_self _ _) _).trans ?_
  refine (transpose_ix2_apply _ _ p q).trans ?_
  exact shapeCast_1ab_ab_apply v0 _ q p

theorem tile_pay5 (v0 : Vec Ideal S1x512x2048 .f32) (p : Fin 2048) (q : Fin 512) :
    k0_pay5 (F := Ideal) v0 (ix2 p q) = v0 (ix3 (0 : Fin 1) q p) := by
  unfold k0_pay5
  refine (congrFun (shapeCast_self _ _) _).trans ?_
  refine (transpose_ix2_apply _ _ p q).trans ?_
  exact shapeCast_1ab_ab_apply v0 _ q p

/-- A slab of 512 rows from row `o`, loaded from the whole staged block, at `(0, q, p)` is the block at `(0, o + q, p)`. -/
theorem slab_load (arg2 : Memref sig .tc .vmem S1x2048x2048 .f32) (harg2 : arg2.IsWhole) (x1 : Vec Ideal S1x2048x2048 .f32)
    (o : Nat) (ho : o + 512 ≤ 2048)
    (inb : ∀ a, (![0, o, 0] : Fin 3 → Nat) a + S1x512x2048.size a ≤ S1x2048x2048.size a) (q : Fin 512) (p : Fin 2048) :
    View.readAt (Elt Ideal) arg2.view (Rect.unit (s := S1x2048x2048) ![0, o, 0] S1x512x2048.size inb).toLoadRect (harg2.unread x1)
        (ix3 (0 : Fin 1) q p)
      = x1 (ix3 (0 : Fin 1) ⟨o + q.val, by have := q.isLt; omega⟩ p) := by
  rw [View.readAt_eq_ld, harg2.read_unread]
  show x1 ((Rect.unit (s := S1x2048x2048) ![0, o, 0] S1x512x2048.size inb).emb (ix3 (0 : Fin 1) q p)) = _
  refine congrArg x1 (funext fun a => Fin.ext ?_)
  match a with
  | ⟨0, _⟩ => show 0 + 1 * 0 = 0; rfl
  | ⟨1, _⟩ => show o + 1 * q.val = o + q.val; omega
  | ⟨2, _⟩ => show 0 + 1 * p.val = p.val; omega

/-- A tile's payload over its slab is the transposed operator under the tile's columns. -/
theorem tile_eq (pay : Vec Ideal S1x512x2048 .f32 → FVec Ideal S2048x512 .bf16)
    (hpay : ∀ v p q, pay v (ix2 p q) = v (ix3 (0 : Fin 1) q p))
    (arg2 : Memref sig .tc .vmem S1x2048x2048 .f32) (harg2 : arg2.IsWhole) (x1 : Vec Ideal S1x2048x2048 .f32)
    (o : Nat) (ho : o + 512 ≤ 2048)
    (inbL : ∀ a, (![0, o, 0] : Fin 3 → Nat) a + S1x512x2048.size a ≤ S1x2048x2048.size a)
    (inbS : ∀ a, (![0, o] : Fin 2 → Nat) a + S2048x512.size a ≤ S2048x2048.size a)
    (x : (Rect.unit (s := S2048x2048) ![0, o] S2048x512.size inbS).shape.Idx) :
    pay (View.readAt (Elt Ideal) arg2.view (Rect.unit (s := S1x2048x2048) ![0, o, 0] S1x512x2048.size inbL).toLoadRect (harg2.unread x1)) x
      = aT x1 ((Rect.unit (s := S2048x2048) ![0, o] S2048x512.size inbS).emb x) := by
  obtain ⟨p, q, rfl⟩ : ∃ (p : Fin 2048) (q : Fin 512), x = ix2 p q := ⟨x 0, x 1, eq_ix2 x⟩
  rw [hpay, slab_load arg2 harg2 x1 o ho inbL q p]
  unfold aT
  refine congrArg x1 (funext fun a => Fin.ext ?_)
  match a with
  | ⟨0, _⟩ => rfl
  | ⟨1, _⟩ => show o + q.val = o + 1 * q.val; omega
  | ⟨2, _⟩ => show p.val = 0 + 1 * p.val; omega

/-- The scratch buffer read whole after the four tile stores is the transposed operator block. -/
theorem scratch_eq (arg12 : Memref sig .tc .vmem S2048x2048 .bf16) (arg2 : Memref sig .tc .vmem S1x2048x2048 .f32)
    (harg2 : arg2.IsWhole) (x1 : Vec Ideal S1x2048x2048 .f32) :
    (arg12.view.readCov
        ([⟨Rect.unit (s := S2048x2048) ![0, 1536] S2048x512.size inb_S2048x2048_S2048x512_0_1536,
            k0_pay5 (View.readAt (Elt Ideal) arg2.view
              (Rect.unit (s := S1x2048x2048) ![0, 1536, 0] S1x512x2048.size inb_S1x2048x2048_S1x512x2048_0_1536_0).toLoadRect (harg2.unread x1))⟩,
          ⟨Rect.unit (s := S2048x2048) ![0, 1024] S2048x512.size inb_S2048x2048_S2048x512_0_1024,
            k0_pay4 (View.readAt (Elt Ideal) arg2.view
              (Rect.unit (s := S1x2048x2048) ![0, 1024, 0] S1x512x2048.size inb_S1x2048x2048_S1x512x2048_0_1024_0).toLoadRect (harg2.unread x1))⟩,
          ⟨Rect.unit (s := S2048x2048) ![0, 512] S2048x512.size inb_S2048x2048_S2048x512_0_512,
            k0_pay3 (View.readAt (Elt Ideal) arg2.view
              (Rect.unit (s := S1x2048x2048) ![0, 512, 0] S1x512x2048.size inb_S1x2048x2048_S1x512x2048_0_512_0).toLoadRect (harg2.unread x1))⟩,
          ⟨Rect.unit (s := S2048x2048) ![0, 0] S2048x512.size inb_S2048x2048_S2048x512_0_0,
            k0_pay2 (View.readAt (Elt Ideal) arg2.view
              (Rect.unit (s := S1x2048x2048) ![0, 0, 0] S1x512x2048.size inb_S1x2048x2048_S1x512x2048_0_0_0).toLoadRect (harg2.unread x1))⟩] : List (View.Piece (Elt Ideal) S2048x2048 .bf16))
        (Rect.unit (s := S2048x2048) ![0, 0] S2048x2048.size inb_S2048x2048_S2048x2048_0_0).toLoadRect : FVec Ideal S2048x2048 .bf16)
      = aT x1 := by
  rw [View.readCov_eq_canon']
  funext j
  have hj : (Rect.unit (s := S2048x2048) ![0, 0] S2048x2048.size inb_S2048x2048_S2048x2048_0_0).toLoadRect.idx j = j :=
    funext fun a => Fin.ext (by
      match a with
      | ⟨0, _⟩ => show 0 + 1 * (j 0).val = (j 0).val; omega
      | ⟨1, _⟩ => show 0 + 1 * (j 1).val = (j 1).val; omega)
  rw [hj]
  refine View.canon_apply_of_pieces (Val := Elt Ideal) (S := S2048x2048) (e := .bf16) (aT x1) _ ?_ j (View.cover_of_tiledL (s := S2048x2048) _ S2048x512.size (by sl_kernel_rfl) j)
  intro pc hpc
  simp only [List.mem_cons, List.mem_nil_iff, or_false] at hpc
  rcases hpc with rfl | rfl | rfl | rfl
  · exact tile_eq _ tile_pay5 arg2 harg2 x1 1536 (by omega) inb_S1x2048x2048_S1x512x2048_0_1536_0 inb_S2048x2048_S2048x512_0_1536
  · exact tile_eq _ tile_pay4 arg2 harg2 x1 1024 (by omega) inb_S1x2048x2048_S1x512x2048_0_1024_0 inb_S2048x2048_S2048x512_0_1024
  · exact tile_eq _ tile_pay3 arg2 harg2 x1 512 (by omega) inb_S1x2048x2048_S1x512x2048_0_512_0 inb_S2048x2048_S2048x512_0_512
  · exact tile_eq _ tile_pay2 arg2 harg2 x1 0 (by omega) inb_S1x2048x2048_S1x512x2048_0_0_0 inb_S2048x2048_S2048x512_0_0

end Cert.KernelIdeal.Scratch

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.Dots.lean ====
/-
  The body's five matrix products read at an output index.

  Each is a rows-by-columns product (the first operand's columns contracted against the second's rows) into a zero
  accumulator, so on the extended reals its entry `(p, e)` is the plain sum `∑ⱼ A[p, j] · B[j, e]`.  For each of the
  program's dimension records the four facts below say where the record sends an output index and a contraction index
  in each operand; the sum then follows from the general lemma.
-/
import proofs.«114296_j4509715660893_2_alg».proof.Proof.Gen.KernelIdeal
import proofs.«114296_j4509715660893_2_alg».proof.Proof.LibDot

noncomputable section

open scoped BigOperators

namespace Cert.KernelIdeal.Dots

open Idealize.ShloMosaic Idealize.ShloMosaic.ValueIdx Cert.KernelIdeal

/-! ### a row of a transposed term against the transposed operator: 128 features by 2048 nodes -/

theorem mmRecur_l0 (i : S128x2048.Idx) (q : dot_S128x2048_S2048x2048_S128x2048_1_0_0_1_n_n.contr.Idx) : (dot_S128x2048_S2048x2048_S128x2048_1_0_0_1_n_n.lhsIdx i q 0).val = (i 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
theorem mmRecur_l1 (i : S128x2048.Idx) (q : dot_S128x2048_S2048x2048_S128x2048_1_0_0_1_n_n.contr.Idx) : (dot_S128x2048_S2048x2048_S128x2048_1_0_0_1_n_n.lhsIdx i q 1).val = (q ⟨0, by decide⟩).val :=
  dot_S128x2048_S2048x2048_S128x2048_1_0_0_1_n_n.lhsIdx_val_of_single rfl i q
theorem mmRecur_r0 (i : S128x2048.Idx) (q : dot_S128x2048_S2048x2048_S128x2048_1_0_0_1_n_n.contr.Idx) : (dot_S128x2048_S2048x2048_S128x2048_1_0_0_1_n_n.rhsIdx i q 0).val = (q ⟨0, by decide⟩).val :=
  dot_S128x2048_S2048x2048_S128x2048_1_0_0_1_n_n.rhsIdx_val_of_single rfl i q
theorem mmRecur_r1 (i : S128x2048.Idx) (q : dot_S128x2048_S2048x2048_S128x2048_1_0_0_1_n_n.contr.Idx) : (dot_S128x2048_S2048x2048_S128x2048_1_0_0_1_n_n.rhsIdx i q 1).val = (i 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl

/-- Entry `(p, e)` of the product is `∑ⱼ A[p, j] · B[j, e]`. -/
theorem mmRecur {φ₁ φ₂ : FTy} (A : FVec Ideal S128x2048 φ₁) (B : FVec Ideal S2048x2048 φ₂) (p : Fin 128) (e : Fin 2048) :
    FloatOps.matmul dot_S128x2048_S2048x2048_S128x2048_1_0_0_1_n_n none A B (constant S128x2048 .f32 0x00000000#32) (ix2 p e) = ∑ j : Fin 2048, A (ix2 p j) * B (ix2 j e) :=
  Cert.LibDot.matmul_zero_apply dot_S128x2048_S2048x2048_S128x2048_1_0_0_1_n_n rfl rfl mmRecur_l0 mmRecur_l1 mmRecur_r0 mmRecur_r1 none A B p e

/-! ### a transposed weight matrix against a transposed term: 8 channels by 2048 nodes -/

theorem mmProj_l0 (i : S8x2048.Idx) (q : dot_S8x128_S128x2048_S8x2048_1_0_0_1_n_n.contr.Idx) : (dot_S8x128_S128x2048_S8x2048_1_0_0_1_n_n.lhsIdx i q 0).val = (i 0).val := by
  unfold DotDims.lhsIdx
  rw [dif_neg (show ¬(0 : Fin S8x128.rank) ∈ dot_S8x128_S128x2048_S8x2048_1_0_0_1_n_n.lhsBatch by decide), dif_pos (show (0 : Fin S8x128.rank) ∈ dot_S8x128_S128x2048_S8x2048_1_0_0_1_n_n.lhsNonContracting by decide)]
  rfl
theorem mmProj_l1 (i : S8x2048.Idx) (q : dot_S8x128_S128x2048_S8x2048_1_0_0_1_n_n.contr.Idx) : (dot_S8x128_S128x2048_S8x2048_1_0_0_1_n_n.lhsIdx i q 1).val = (q ⟨0, by decide⟩).val :=
  dot_S8x128_S128x2048_S8x2048_1_0_0_1_n_n.lhsIdx_val_of_single rfl i q
theorem mmProj_r0 (i : S8x2048.Idx) (q : dot_S8x128_S128x2048_S8x2048_1_0_0_1_n_n.contr.Idx) : (dot_S8x128_S128x2048_S8x2048_1_0_0_1_n_n.rhsIdx i q 0).val = (q ⟨0, by decide⟩).val :=
  dot_S8x128_S128x2048_S8x2048_1_0_0_1_n_n.rhsIdx_val_of_single rfl i q
theorem mmProj_r1 (i : S8x2048.Idx) (q : dot_S8x128_S128x2048_S8x2048_1_0_0_1_n_n.contr.Idx) : (dot_S8x128_S128x2048_S8x2048_1_0_0_1_n_n.rhsIdx i q 1).val = (i 1).val := by
  unfold DotDims.rhsIdx
  rw [dif_neg (show ¬(1 : Fin S128x2048.rank) ∈ dot_S8x128_S128x2048_S8x2048_1_0_0_1_n_n.rhsBatch by decide), dif_pos (show (1 : Fin S128x2048.rank) ∈ dot_S8x128_S128x2048_S8x2048_1_0_0_1_n_n.rhsNonContracting by decide)]
  rfl

/-- Entry `(p, e)` of the product is `∑ⱼ A[p, j] · B[j, e]`. -/
theorem mmProj {φ₁ φ₂ : FTy} (A : FVec Ideal S8x128 φ₁) (B : FVec Ideal S128x2048 φ₂) (p : Fin 8) (e : Fin 2048) :
    FloatOps.matmul dot_S8x128_S128x2048_S8x2048_1_0_0_1_n_n none A B (constant S8x2048 .f32 0x00000000#32) (ix2 p e) = ∑ j : Fin 128, A (ix2 p j) * B (ix2 j e) :=
  Cert.LibDot.matmul_zero_apply dot_S8x128_S128x2048_S8x2048_1_0_0_1_n_n rfl rfl mmProj_l0 mmProj_l1 mmProj_r0 mmProj_r1 none A B p e

/-! ### the first dense layer -/

theorem mmD1_l0 (i : S1x32.Idx) (q : dot_S1x8_S8x32_S1x32_1_0_0_1_n_n.contr.Idx) : (dot_S1x8_S8x32_S1x32_1_0_0_1_n_n.lhsIdx i q 0).val = (i 0).val := by
  unfold DotDims.lhsIdx
  rw [dif_neg (show ¬(0 : Fin S1x8.rank) ∈ dot_S1x8_S8x32_S1x32_1_0_0_1_n_n.lhsBatch by decide), dif_pos (show (0 : Fin S1x8.rank) ∈ dot_S1x8_S8x32_S1x32_1_0_0_1_n_n.lhsNonContracting by decide)]
  rfl
theorem mmD1_l1 (i : S1x32.Idx) (q : dot_S1x8_S8x32_S1x32_1_0_0_1_n_n.contr.Idx) : (dot_S1x8_S8x32_S1x32_1_0_0_1_n_n.lhsIdx i q 1).val = (q ⟨0, by decide⟩).val :=
  dot_S1x8_S8x32_S1x32_1_0_0_1_n_n.lhsIdx_val_of_single rfl i q
theorem mmD1_r0 (i : S1x32.Idx) (q : dot_S1x8_S8x32_S1x32_1_0_0_1_n_n.contr.Idx) : (dot_S1x8_S8x32_S1x32_1_0_0_1_n_n.rhsIdx i q 0).val = (q ⟨0, by decide⟩).val :=
  dot_S1x8_S8x32_S1x32_1_0_0_1_n_n.rhsIdx_val_of_single rfl i q
theorem mmD1_r1 (i : S1x32.Idx) (q : dot_S1x8_S8x32_S1x32_1_0_0_1_n_n.contr.Idx) : (dot_S1x8_S8x32_S1x32_1_0_0_1_n_n.rhsIdx i q 1).val = (i 1).val := by
  unfold DotDims.rhsIdx
  rw [dif_neg (show ¬(1 : Fin S8x32.rank) ∈ dot_S1x8_S8x32_S1x32_1_0_0_1_n_n.rhsBatch by decide), dif_pos (show (1 : Fin S8x32.rank) ∈ dot_S1x8_S8x32_S1x32_1_0_0_1_n_n.rhsNonContracting by decide)]
  rfl

/-- Entry `(p, e)` of the product is `∑ⱼ A[p, j] · B[j, e]`. -/
theorem mmD1 {φ₁ φ₂ : FTy} (A : FVec Ideal S1x8 φ₁) (B : FVec Ideal S8x32 φ₂) (p : Fin 1) (e : Fin 32) :
    FloatOps.matmul dot_S1x8_S8x32_S1x32_1_0_0_1_n_n none A B (constant S1x32 .f32 0x00000000#32) (ix2 p e) = ∑ j : Fin 8, A (ix2 p j) * B (ix2 j e) :=
  Cert.LibDot.matmul_zero_apply dot_S1x8_S8x32_S1x32_1_0_0_1_n_n rfl rfl mmD1_l0 mmD1_l1 mmD1_r0 mmD1_r1 none A B p e

/-! ### the second dense layer -/

theorem mmD2_l0 (i : S1x16.Idx) (q : dot_S1x32_S32x16_S1x16_1_0_0_1_n_n.contr.Idx) : (dot_S1x32_S32x16_S1x16_1_0_0_1_n_n.lhsIdx i q 0).val = (i 0).val := by
  unfold DotDims.lhsIdx
  rw [dif_neg (show ¬(0 : Fin S1x32.rank) ∈ dot_S1x32_S32x16_S1x16_1_0_0_1_n_n.lhsBatch by decide), dif_pos (show (0 : Fin S1x32.rank) ∈ dot_S1x32_S32x16_S1x16_1_0_0_1_n_n.lhsNonContracting by decide)]
  rfl
theorem mmD2_l1 (i : S1x16.Idx) (q : dot_S1x32_S32x16_S1x16_1_0_0_1_n_n.contr.Idx) : (dot_S1x32_S32x16_S1x16_1_0_0_1_n_n.lhsIdx i q 1).val = (q ⟨0, by decide⟩).val :=
  dot_S1x32_S32x16_S1x16_1_0_0_1_n_n.lhsIdx_val_of_single rfl i q
theorem mmD2_r0 (i : S1x16.Idx) (q : dot_S1x32_S32x16_S1x16_1_0_0_1_n_n.contr.Idx) : (dot_S1x32_S32x16_S1x16_1_0_0_1_n_n.rhsIdx i q 0).val = (q ⟨0, by decide⟩).val :=
  dot_S1x32_S32x16_S1x16_1_0_0_1_n_n.rhsIdx_val_of_single rfl i q
theorem mmD2_r1 (i : S1x16.Idx) (q : dot_S1x32_S32x16_S1x16_1_0_0_1_n_n.contr.Idx) : (dot_S1x32_S32x16_S1x16_1_0_0_1_n_n.rhsIdx i q 1).val = (i 1).val := by
  unfold DotDims.rhsIdx
  rw [dif_neg (show ¬(1 : Fin S32x16.rank) ∈ dot_S1x32_S32x16_S1x16_1_0_0_1_n_n.rhsBatch by decide), dif_pos (show (1 : Fin S32x16.rank) ∈ dot_S1x32_S32x16_S1x16_1_0_0_1_n_n.rhsNonContracting by decide)]
  rfl

/-- Entry `(p, e)` of the product is `∑ⱼ A[p, j] · B[j, e]`. -/
theorem mmD2 {φ₁ φ₂ : FTy} (A : FVec Ideal S1x32 φ₁) (B : FVec Ideal S32x16 φ₂) (p : Fin 1) (e : Fin 16) :
    FloatOps.matmul dot_S1x32_S32x16_S1x16_1_0_0_1_n_n none A B (constant S1x16 .f32 0x00000000#32) (ix2 p e) = ∑ j : Fin 32, A (ix2 p j) * B (ix2 j e) :=
  Cert.LibDot.matmul_zero_apply dot_S1x32_S32x16_S1x16_1_0_0_1_n_n rfl rfl mmD2_l0 mmD2_l1 mmD2_r0 mmD2_r1 none A B p e

/-! ### the last dense layer -/

theorem mmD3_l0 (i : S1x1.Idx) (q : dot_S1x16_S16x1_S1x1_1_0_0_1_n_n.contr.Idx) : (dot_S1x16_S16x1_S1x1_1_0_0_1_n_n.lhsIdx i q 0).val = (i 0).val := by
  unfold DotDims.lhsIdx
  rw [dif_neg (show ¬(0 : Fin S1x16.rank) ∈ dot_S1x16_S16x1_S1x1_1_0_0_1_n_n.lhsBatch by decide), dif_pos (show (0 : Fin S1x16.rank) ∈ dot_S1x16_S16x1_S1x1_1_0_0_1_n_n.lhsNonContracting by decide)]
  rfl
theorem mmD3_l1 (i : S1x1.Idx) (q : dot_S1x16_S16x1_S1x1_1_0_0_1_n_n.contr.Idx) : (dot_S1x16_S16x1_S1x1_1_0_0_1_n_n.lhsIdx i q 1).val = (q ⟨0, by decide⟩).val :=
  dot_S1x16_S16x1_S1x1_1_0_0_1_n_n.lhsIdx_val_of_single rfl i q
theorem mmD3_r0 (i : S1x1.Idx) (q : dot_S1x16_S16x1_S1x1_1_0_0_1_n_n.contr.Idx) : (dot_S1x16_S16x1_S1x1_1_0_0_1_n_n.rhsIdx i q 0).val = (q ⟨0, by decide⟩).val :=
  dot_S1x16_S16x1_S1x1_1_0_0_1_n_n.rhsIdx_val_of_single rfl i q
theorem mmD3_r1 (i : S1x1.Idx) (q : dot_S1x16_S16x1_S1x1_1_0_0_1_n_n.contr.Idx) : (dot_S1x16_S16x1_S1x1_1_0_0_1_n_n.rhsIdx i q 1).val = (i 1).val := by
  unfold DotDims.rhsIdx
  rw [dif_neg (show ¬(1 : Fin S16x1.rank) ∈ dot_S1x16_S16x1_S1x1_1_0_0_1_n_n.rhsBatch by decide), dif_pos (show (1 : Fin S16x1.rank) ∈ dot_S1x16_S16x1_S1x1_1_0_0_1_n_n.rhsNonContracting by decide)]
  rfl

/-- Entry `(p, e)` of the product is `∑ⱼ A[p, j] · B[j, e]`. -/
theorem mmD3 {φ₁ φ₂ : FTy} (A : FVec Ideal S1x16 φ₁) (B : FVec Ideal S16x1 φ₂) (p : Fin 1) (e : Fin 1) :
    FloatOps.matmul dot_S1x16_S16x1_S1x1_1_0_0_1_n_n none A B (constant S1x1 .f32 0x00000000#32) (ix2 p e) = ∑ j : Fin 16, A (ix2 p j) * B (ix2 j e) :=
  Cert.LibDot.matmul_zero_apply dot_S1x16_S16x1_S1x1_1_0_0_1_n_n rfl rfl mmD3_l0 mmD3_l1 mmD3_r0 mmD3_r1 none A B p e

end Cert.KernelIdeal.Dots

end
-- ==== Proof.LibRowwise.lean ====
/-
  Layout operations of row-wise kernels read at an index written by coordinates, over abstract extents, and a
  matrix product into a zero accumulator read as a plain sum.

  * a vector of `a` entries cast to a column `[a, 1]` reads, at `(i, u)`, the vector at `i`;
  * a column `[a, 1]` broadcast to `[a, b]` reads, at `(p, c)`, the column at `(p, 0)`: every entry of a row is the row's one value;
  * two arrays `[R, a]` and `[R, b]` joined along the second axis read, at `(r, j)`, the first at `(r, j)` when `j < a`
    and the second at `(r, j - a)` otherwise;
  * a product of an `[m, k]` by a `[k, n]` array contracting the first's columns with the second's rows, accumulated into
    zero, is `∑ⱼ A[p, j] · B[j, e]` at `(p, e)` on the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRowwise

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two arrays joined along the second axis, read at `(r, j)`: the first below its width `a`, the second from `a` on. -/
theorem concatenate_cols_apply {R a b c : ℕ} (hc : c = a + b) (x : (⟨2, ![R, a]⟩ : Shape).Idx → α) (y : (⟨2, ![R, b]⟩ : Shape).Idx → α)
    (h : Shape.Concatenates [(⟨2, ![R, a]⟩ : Shape), ⟨2, ![R, b]⟩] ⟨2, ![R, c]⟩ (1 : Fin 2)) (r : Fin R) (j : Fin c) :
    concatenate ⟨2, ![R, c]⟩ (1 : Fin 2) [⟨⟨2, ![R, a]⟩, x⟩, ⟨⟨2, ![R, b]⟩, y⟩] h (ix2 r j)
      = if hj : j.val < a then x (ix2 r ⟨j.val, hj⟩) else y (ix2 r ⟨j.val - a, by have := j.isLt; omega⟩) := by
  by_cases hj : j.val < a
  · rw [dif_pos hj]
    exact concatenate_pair_apply_left (1 : Fin 2) x y h (ix2 r j) rfl (ix2 r ⟨j.val, hj⟩) (fun d => by
      match d with
      | ⟨0, _⟩ => rfl
      | ⟨1, _⟩ => rfl)
  · rw [dif_neg hj]
    exact concatenate_pair_apply_right (1 : Fin 2) x y h (ix2 r j) rfl rfl
      (ix2 r ⟨j.val - a, by have := j.isLt; omega⟩) (fun d hd => by
        match d with
        | ⟨0, _⟩ => rfl
        | ⟨1, _⟩ => exact absurd rfl hd) (by show (j.val - a) + a = j.val; omega)

/-- A matrix product of rows by columns into the zero accumulator, at `(p, e)`: the sum over the one contracted
    coordinate of `A[p, j] · B[j, e]`.  The four hypotheses say where the product's dimension numbers send an output
    index and a contraction index in each operand (rows of the first with its columns contracted against the rows of
    the second). -/
theorem matmul_zero_apply {m k n : ℕ} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ .f32) (B : FVec Ideal ⟨2, ![k, n]⟩ .f32)
    (p : Fin m) (e : Fin n) :
    FloatOps.matmul D prec A B (constant ⟨2, ![m, n]⟩ .f32 0x00000000#32) (ix2 p e) = ∑ j : Fin k, A (ix2 p j) * B (ix2 j e) := by
  rw [Ideal.matmul_constant_zero_apply, ← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

end Cert.LibRowwise

end
-- ==== Proof.LibLaneSum.lean ====
/-
  A sum along the lanes of an `[a, n]` array, kept as a column `[a, 1]` (a sum over the last axis with the axis kept),
  read at `(r, u)` on the extended reals: it is the plain sum `∑ d, src[r, d]` over the `n` entries of row `r`.
-/
import Idealize.ShloMosaic.PureOps.Ideal
import Idealize.ShloMosaic.PureOps.Ideal.Laws
import Idealize.ShloMosaic.Lib.ValueIdx
import Idealize.ShloMosaic.Lib.Pipeline.Value
import proofs.«114296_j4509715660893_2_alg».proof.Proof.LibRowwise

noncomputable section

open scoped BigOperators

namespace Cert.LibLaneSum

open Idealize.ShloMosaic Idealize.ShloMosaic.ValueIdx

/-- A sum along the lanes, kept as a column: at `(r, u)` it is the sum of row `r`. The accumulator word is the zero
    word, whatever proof the program carries of that. -/
theorem lane_sum_col {a n : ℕ} (src : FVec Ideal ⟨2, ![a, n]⟩ .f32)
    (hred : (⟨2, ![a, n]⟩ : Shape).Reduces [1] ⟨1, ![a]⟩) (hφ : FKind.Formats .f32)
    (hacc : (0x00000000#32 : BitVec 32) = FKind.add.neutral .f32 hφ)
    (hsc : (⟨1, ![a]⟩ : Shape).ShapeCasts ⟨2, ![a, 1]⟩) (r : Fin a) (u : Fin 1) :
    shapeCast ⟨2, ![a, 1]⟩ (multiReduction .add [1] ⟨1, ![a]⟩ src 0x00000000#32 hred hφ hacc) hsc (ix2 r u)
      = ∑ d : Fin n, src (ix2 r d) := by
  refine (Cert.LibRowwise.shapeCast_a_a1_apply _ hsc r u).trans ?_
  refine (Ideal.multiReduction_add_single src _ hred hφ hacc (ix1 r)).trans ?_
  show (∑ d : Fin n, src (hred.lift (ix1 r) d)) = _
  refine Finset.sum_congr rfl fun d _ => congrArg src (funext fun ax => Fin.ext ?_)
  match ax with
  | ⟨0, _⟩ => rfl
  | ⟨1, _⟩ => rfl

end Cert.LibLaneSum

end
-- ==== Proof.Stages.lean ====
/-
  The body's arithmetic, one stage at a time, read at an index on the extended reals.

  The body keeps every Chebyshev term TRANSPOSED, `sₖ[f, n] = Tₖ[n, f]`, and multiplies it from the right by the transposed
  operator `aT[k, n] = a[n, k]`: `(sₖ · aT)[f, n] = ∑ⱼ sₖ[f, j] · aT[j, n] = ∑ⱼ a[n, j] · Tₖ[j, f] = (a · Tₖ)[n, f]`, the
  products exchanged term by term.  The projection multiplies the transposed weights `wₖᵀ[c, f]` by `sₖ`:
  `(wₖᵀ · sₖ)[c, n] = ∑_f Tₖ[n, f] · wₖ[f, c]`.  Each lemma takes the operands as arbitrary arrays together with what
  they hold index by index, so that it applies to the nested terms of the body without opening them.
-/
import proofs.«114296_j4509715660893_2_alg».proof.Proof.Gen.KernelIdeal.Skeleton
import proofs.«114296_j4509715660893_2_alg».proof.Proof.Spec
import proofs.«114296_j4509715660893_2_alg».proof.Proof.Dots
import proofs.«114296_j4509715660893_2_alg».proof.Proof.LibRowwise
import proofs.«114296_j4509715660893_2_alg».proof.Proof.LibLaneSum
import Idealize.ShloMosaic.Lib.ValueLayout
import Idealize.ShloMosaic.Lib.Pipeline.Value

set_option maxRecDepth 16384

noncomputable section

open scoped BigOperators

namespace Cert.KernelIdeal.Stages

open Idealize.ShloMosaic Idealize.ShloMosaic.ValueIdx Cert.KernelIdeal Cert.KernelIdeal.Gen Cert.KernelIdeal.Dots Cert.Cheb

/-! ## The transposed node features -/

/-- The staged node features with the unit axis dropped and transposed: entry `(f, n)` is the block's `(0, n, f)`. -/
theorem feat (x0 : Vec Ideal S1x2048x128 .f32) (f : Fin 128) (n : Fin 2048) :
    k0_pay6 (F := Ideal) x0 (ix2 f n) = x0 (ix3 (0 : Fin 1) n f) := by
  unfold k0_pay6
  refine (transpose_ix2_apply _ _ f n).trans ?_
  exact shapeCast_1ab_ab_apply x0 _ n f

/-- The same after the change of format, which is the identity. -/
theorem featb (x0 : Vec Ideal S1x2048x128 .f32) (f : Fin 128) (n : Fin 2048) :
    k0_pay7 (F := Ideal) x0 (ix2 f n) = x0 (ix3 (0 : Fin 1) n f) := by
  unfold k0_pay7
  exact feat x0 f n

/-! ## The recurrence in transposed space -/

/-- The first product: `(s₀ · aT)[f, n] = T₁[n, f]`. -/
theorem step1 (s0b : FVec Ideal S128x2048 .bf16) (AT : FVec Ideal S2048x2048 .bf16) (X : Fin 2048 → Fin 128 → EReal)
    (A : Fin 2048 → Fin 2048 → EReal) (h0 : ∀ f n, s0b (ix2 f n) = X n f) (hA : ∀ k n, AT (ix2 k n) = A n k)
    (f : Fin 128) (n : Fin 2048) :
    matmul dot_S128x2048_S2048x2048_S128x2048_1_0_0_1_n_n none s0b AT (constant S128x2048 .f32 0x00000000#32) (ix2 f n) = t1 X A n f := by
  refine (mmRecur s0b AT f n).trans ?_
  unfold Cert.Cheb.t1
  exact Finset.sum_congr rfl fun j _ => by rw [h0, hA, mul_comm]

/-- A later step: twice the product of the current term with the transposed operator, less the term before. -/
theorem stepk (sp sc : FVec Ideal S128x2048 .f32) (AT : FVec Ideal S2048x2048 .bf16) (Pv C : Fin 2048 → Fin 128 → EReal)
    (A : Fin 2048 → Fin 2048 → EReal) (hp : ∀ f n, sp (ix2 f n) = Pv n f) (hc : ∀ f n, sc (ix2 f n) = C n f)
    (hA : ∀ k n, AT (ix2 k n) = A n k) (hb : FTy.bits .bf16 < FTy.bits .f32) (f : Fin 128) (n : Fin 2048) :
    subf (mulf (broadcast S128x2048 (Scalar.ofBits (F := Ideal) .f32 0x40000000#32))
        (matmul dot_S128x2048_S2048x2048_S128x2048_1_0_0_1_n_n none (truncf .bf16 sc hb) AT (constant S128x2048 .f32 0x00000000#32))) sp (ix2 f n)
      = two * (∑ j : Fin 2048, A n j * C j f) - Pv n f := by
  have e : matmul dot_S128x2048_S2048x2048_S128x2048_1_0_0_1_n_n none (truncf .bf16 sc hb) AT (constant S128x2048 .f32 0x00000000#32) (ix2 f n) = ∑ j : Fin 2048, A n j * C j f :=
    (mmRecur (truncf .bf16 sc hb) AT f n).trans (Finset.sum_congr rfl fun j _ => by
      show sc (ix2 f j) * AT (ix2 j n) = _
      rw [hc, hA, mul_comm])
  calc subf (mulf (broadcast S128x2048 (Scalar.ofBits (F := Ideal) .f32 0x40000000#32))
          (matmul dot_S128x2048_S2048x2048_S128x2048_1_0_0_1_n_n none (truncf .bf16 sc hb) AT (constant S128x2048 .f32 0x00000000#32))) sp (ix2 f n)
      = two * (matmul dot_S128x2048_S2048x2048_S128x2048_1_0_0_1_n_n none (truncf .bf16 sc hb) AT (constant S128x2048 .f32 0x00000000#32) (ix2 f n)) - sp (ix2 f n) := rfl
    _ = _ := by rw [e, hp]

/-! ## The projection weights and the bias -/

/-- Matrix `o` of the transposed weights, through the slice of the first axis and the cast that drops it:
    entry `(c, f)` is the staged `(o, c, f)`. -/
theorem wslice (x2 : FVec Ideal S4x8x128 .f32) (o : Nat) (ho : o < 4) (hc1 : S4x8x128.ShapeCasts S4x8x128)
    (hsl : S4x8x128.Slices ![o, 0, 0] S1x8x128) (hc2 : S1x8x128.ShapeCasts S8x128) (c : Fin 8) (f : Fin 128) :
    shapeCast S8x128 (extractStridedSlice S1x8x128 ![o, 0, 0] (shapeCast S4x8x128 x2 hc1) hsl) hc2 (ix2 c f)
      = x2 (ix3 (⟨o, ho⟩ : Fin 4) c f) := by
  refine (shapeCast_1ab_ab_apply _ hc2 c f).trans ?_
  refine (extractStridedSlice_apply _ _ hsl _ (ix3 (⟨o, ho⟩ : Fin 4) c f) (fun a => ?_)).trans
    (congrFun (shapeCast_self x2 hc1) _)
  match a with
  | ⟨0, _⟩ => show o = o + 0; rfl
  | ⟨1, _⟩ => show c.val = 0 + c.val; omega
  | ⟨2, _⟩ => show f.val = 0 + f.val; omega

/-- The channel bias as a column repeated along the nodes: entry `(c, n)` is the bias of channel `c`. -/
theorem bias_col (x3 : FVec Ideal S8 .f32) (h1 : S8.ShapeCasts S8x1) (h2 : S8x1.Broadcasts S8x2048) (c : Fin 8) (n : Fin 2048) :
    broadcastTo S8x2048 (shapeCast S8x1 x3 h1) h2 (ix2 c n) = x3 (ix1 c) :=
  (Cert.LibRowwise.broadcastTo_a1_ab_apply _ h2 c n).trans (Cert.LibRowwise.shapeCast_a_a1_apply x3 h1 c 0)

/-- The hidden activation in transposed space: the four projections added from the left, the bias, the cut at zero. -/
theorem hid_eq (s0 s1 s2 s3 : FVec Ideal S128x2048 .f32) (k0 k1 k2 k3 : FVec Ideal S8x128 .f32)
    (bias zero : FVec Ideal S8x2048 .f32) (T0 T1 T2 T3 : Fin 2048 → Fin 128 → EReal)
    (w : Fin 4 → Fin 128 → Fin 8 → EReal) (cb : Fin 8 → EReal)
    (h0 : ∀ f n, s0 (ix2 f n) = T0 n f) (h1 : ∀ f n, s1 (ix2 f n) = T1 n f) (h2 : ∀ f n, s2 (ix2 f n) = T2 n f)
    (h3 : ∀ f n, s3 (ix2 f n) = T3 n f)
    (hk0 : ∀ c f, k0 (ix2 c f) = w 0 f c) (hk1 : ∀ c f, k1 (ix2 c f) = w 1 f c) (hk2 : ∀ c f, k2 (ix2 c f) = w 2 f c)
    (hk3 : ∀ c f, k3 (ix2 c f) = w 3 f c)
    (hb : ∀ c n, bias (ix2 c n) = cb c) (hz : ∀ c n, zero (ix2 c n) = 0) (c : Fin 8) (n : Fin 2048) :
    maximumf (addf (addf (addf (addf (matmul dot_S8x128_S128x2048_S8x2048_1_0_0_1_n_n none k0 s0 (constant S8x2048 .f32 0x00000000#32)) (matmul dot_S8x128_S128x2048_S8x2048_1_0_0_1_n_n none k1 s1 (constant S8x2048 .f32 0x00000000#32))) (matmul dot_S8x128_S128x2048_S8x2048_1_0_0_1_n_n none k2 s2 (constant S8x2048 .f32 0x00000000#32))) (matmul dot_S8x128_S128x2048_S8x2048_1_0_0_1_n_n none k3 s3 (constant S8x2048 .f32 0x00000000#32))) bias) zero (ix2 c n)
      = max (((((∑ f : Fin 128, T0 n f * w 0 f c) + ∑ f : Fin 128, T1 n f * w 1 f c)
          + ∑ f : Fin 128, T2 n f * w 2 f c) + ∑ f : Fin 128, T3 n f * w 3 f c) + cb c) 0 := by
  have p : ∀ (k : FVec Ideal S8x128 .f32) (s : FVec Ideal S128x2048 .f32) (T : Fin 2048 → Fin 128 → EReal) (j : Fin 4)
      (_ : ∀ f n, s (ix2 f n) = T n f) (_ : ∀ c f, k (ix2 c f) = w j f c),
      matmul dot_S8x128_S128x2048_S8x2048_1_0_0_1_n_n none k s (constant S8x2048 .f32 0x00000000#32) (ix2 c n) = ∑ f : Fin 128, T n f * w j f c := fun k s T j hs hk =>
    (mmProj k s c n).trans (Finset.sum_congr rfl fun f _ => by rw [hk, hs, mul_comm])
  calc maximumf (addf (addf (addf (addf (matmul dot_S8x128_S128x2048_S8x2048_1_0_0_1_n_n none k0 s0 (constant S8x2048 .f32 0x00000000#32)) (matmul dot_S8x128_S128x2048_S8x2048_1_0_0_1_n_n none k1 s1 (constant S8x2048 .f32 0x00000000#32))) (matmul dot_S8x128_S128x2048_S8x2048_1_0_0_1_n_n none k2 s2 (constant S8x2048 .f32 0x00000000#32))) (matmul dot_S8x128_S128x2048_S8x2048_1_0_0_1_n_n none k3 s3 (constant S8x2048 .f32 0x00000000#32))) bias) zero (ix2 c n)
      = max (((((matmul dot_S8x128_S128x2048_S8x2048_1_0_0_1_n_n none k0 s0 (constant S8x2048 .f32 0x00000000#32) (ix2 c n)) + matmul dot_S8x128_S128x2048_S8x2048_1_0_0_1_n_n none k1 s1 (constant S8x2048 .f32 0x00000000#32) (ix2 c n)) + matmul dot_S8x128_S128x2048_S8x2048_1_0_0_1_n_n none k2 s2 (constant S8x2048 .f32 0x00000000#32) (ix2 c n))
          + matmul dot_S8x128_S128x2048_S8x2048_1_0_0_1_n_n none k3 s3 (constant S8x2048 .f32 0x00000000#32) (ix2 c n)) + bias (ix2 c n)) (zero (ix2 c n)) := rfl
    _ = _ := by rw [p k0 s0 T0 0 h0 hk0, p k1 s1 T1 1 h1 hk1, p k2 s2 T2 2 h2 hk2, p k3 s3 T3 3 h3 hk3, hb, hz]

/-- The zero the activations are cut at, repeated over a shape, is zero at every index. -/
theorem zero_splat {s : Shape} (i : s.Idx) : broadcast s (Scalar.ofBits (F := Ideal) .f32 0x00000000#32) i = (0 : EReal) :=
  Ideal.ofBits_zero_f32

/-! ## The three dense layers on a single row -/

/-- The first layer: a row of 8 against the 8 × 32 weights, the bias as a row, the cut at zero. -/
theorem layer1 (r : FVec Ideal S1x8 .f32) (wm : FVec Ideal S8x32 .f32) (bv : FVec Ideal S32 .f32) (hc : S32.ShapeCasts S1x32)
    (pl : Fin 8 → EReal) (hr : ∀ u c, r (ix2 u c) = pl c) (u : Fin 1) (j : Fin 32) :
    maximumf (addf (matmul dot_S1x8_S8x32_S1x32_1_0_0_1_n_n none r wm (constant S1x32 .f32 0x00000000#32)) (shapeCast S1x32 bv hc)) (broadcast S1x32 (Scalar.ofBits (F := Ideal) .f32 0x00000000#32)) (ix2 u j)
      = max ((∑ c : Fin 8, pl c * wm (ix2 c j)) + bv (ix1 j)) 0 := by
  calc maximumf (addf (matmul dot_S1x8_S8x32_S1x32_1_0_0_1_n_n none r wm (constant S1x32 .f32 0x00000000#32)) (shapeCast S1x32 bv hc)) (broadcast S1x32 (Scalar.ofBits (F := Ideal) .f32 0x00000000#32)) (ix2 u j)
      = max (matmul dot_S1x8_S8x32_S1x32_1_0_0_1_n_n none r wm (constant S1x32 .f32 0x00000000#32) (ix2 u j) + shapeCast S1x32 bv hc (ix2 u j)) (broadcast S1x32 (Scalar.ofBits (F := Ideal) .f32 0x00000000#32) (ix2 u j)) := rfl
    _ = _ := by
      have e : matmul dot_S1x8_S8x32_S1x32_1_0_0_1_n_n none r wm (constant S1x32 .f32 0x00000000#32) (ix2 u j) = ∑ c : Fin 8, r (ix2 u c) * wm (ix2 c j) := mmD1 r wm u j
      rw [e, shapeCast_a_1a_apply bv hc u j, zero_splat]
      exact congrArg (fun t => max (t + bv (ix1 j)) 0) (Finset.sum_congr rfl fun c _ => by rw [hr])

/-- The second layer: a row of 32 against the 32 × 16 weights. -/
theorem layer2 (r : FVec Ideal S1x32 .f32) (wm : FVec Ideal S32x16 .f32) (bv : FVec Ideal S16 .f32) (hc : S16.ShapeCasts S1x16)
    (q : Fin 32 → EReal) (hr : ∀ u k, r (ix2 u k) = q k) (u : Fin 1) (j : Fin 16) :
    maximumf (addf (matmul dot_S1x32_S32x16_S1x16_1_0_0_1_n_n none r wm (constant S1x16 .f32 0x00000000#32)) (shapeCast S1x16 bv hc)) (broadcast S1x16 (Scalar.ofBits (F := Ideal) .f32 0x00000000#32)) (ix2 u j)
      = max ((∑ k : Fin 32, q k * wm (ix2 k j)) + bv (ix1 j)) 0 := by
  calc maximumf (addf (matmul dot_S1x32_S32x16_S1x16_1_0_0_1_n_n none r wm (constant S1x16 .f32 0x00000000#32)) (shapeCast S1x16 bv hc)) (broadcast S1x16 (Scalar.ofBits (F := Ideal) .f32 0x00000000#32)) (ix2 u j)
      = max (matmul dot_S1x32_S32x16_S1x16_1_0_0_1_n_n none r wm (constant S1x16 .f32 0x00000000#32) (ix2 u j) + shapeCast S1x16 bv hc (ix2 u j)) (broadcast S1x16 (Scalar.ofBits (F := Ideal) .f32 0x00000000#32) (ix2 u j)) := rfl
    _ = _ := by
      have e : matmul dot_S1x32_S32x16_S1x16_1_0_0_1_n_n none r wm (constant S1x16 .f32 0x00000000#32) (ix2 u j) = ∑ k : Fin 32, r (ix2 u k) * wm (ix2 k j) := mmD2 r wm u j
      rw [e, shapeCast_a_1a_apply bv hc u j, zero_splat]
      exact congrArg (fun t => max (t + bv (ix1 j)) 0) (Finset.sum_congr rfl fun k _ => by rw [hr])

/-- The last layer: a row of 16 against the 16 × 1 weights, no cut. -/
theorem layer3 (r : FVec Ideal S1x16 .f32) (wm : FVec Ideal S16x1 .f32) (bv : FVec Ideal S1 .f32) (hc : S1.ShapeCasts S1x1)
    (q : Fin 16 → EReal) (hr : ∀ u k, r (ix2 u k) = q k) (u v : Fin 1) :
    addf (matmul dot_S1x16_S16x1_S1x1_1_0_0_1_n_n none r wm (constant S1x1 .f32 0x00000000#32)) (shapeCast S1x1 bv hc) (ix2 u v)
      = (∑ k : Fin 16, q k * wm (ix2 k v)) + bv (ix1 v) := by
  calc addf (matmul dot_S1x16_S16x1_S1x1_1_0_0_1_n_n none r wm (constant S1x1 .f32 0x00000000#32)) (shapeCast S1x1 bv hc) (ix2 u v)
      = matmul dot_S1x16_S16x1_S1x1_1_0_0_1_n_n none r wm (constant S1x1 .f32 0x00000000#32) (ix2 u v) + shapeCast S1x1 bv hc (ix2 u v) := rfl
    _ = _ := by
      have e : matmul dot_S1x16_S16x1_S1x1_1_0_0_1_n_n none r wm (constant S1x1 .f32 0x00000000#32) (ix2 u v) = ∑ k : Fin 16, r (ix2 u k) * wm (ix2 k v) := mmD3 r wm u v
      rw [e, shapeCast_a_1a_apply bv hc u v]
      exact congrArg (fun t => t + bv (ix1 v)) (Finset.sum_congr rfl fun k _ => by rw [hr])

end Cert.KernelIdeal.Stages

end
-- ==== Proof.LibWhole.lean ====
/-
  Whole-buffer accesses through a view, over an abstract shape.

  A load through the rectangle at zero offsets of the shape's own sizes reads the view's contents; one unmasked
  store through that rectangle leaves its payload, whatever the buffer held; and a load through it of what one
  such store left reads the payload. Each is stated for any shape `S`, so that a use at a shape of large
  literal extents unifies the rectangle syntactically and never unfolds the sizes.
-/
import Idealize.ShloMosaic.Lib.Pipeline.FrameBody
import Idealize.ShloMosaic.Lib.Pipeline.Value

noncomputable section

namespace Cert.LibWhole

open Idealize.ShloMosaic

variable {Val : EltTy → Type} {sig : RefSig} {κ : Kind} {sp : Space} {S : Shape} {e : EltTy}

/-- A load of the whole shape at zero offsets reads what the view reads. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld]; exact View.ld_unit_zero h inb _

/-- One unmasked store of the whole shape at zero offsets leaves its payload. -/
theorem read_writes_whole [∀ e, Nonempty (Val e)] (v : View sig κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩)]
  exact View.canon_unit_zero h inb w

end Cert.LibWhole

end
-- ==== Proof.Body.lean ====
/-
  What the body leaves in the output block: the specification of ONE graph, over the staged blocks.

  The body's one store writes a `1 × 1 × 1` block.  Its payload is the three dense layers applied to the channel sums,
  the channel sums are the lane sums of the hidden activations, the hidden activations are built from the transposed
  Chebyshev terms `sₖ = Tₖᵀ`, and those from the staged node features and the transposed operator read back from the
  scratch buffer.  Transposing both factors of a product and exchanging them is the same sum, term by term.
-/
import proofs.«114296_j4509715660893_2_alg».proof.Proof.Gen.KernelIdeal.Frame
import proofs.«114296_j4509715660893_2_alg».proof.Proof.Spec
import proofs.«114296_j4509715660893_2_alg».proof.Proof.Scratch
import proofs.«114296_j4509715660893_2_alg».proof.Proof.Dots
import proofs.«114296_j4509715660893_2_alg».proof.Proof.Stages
import proofs.«114296_j4509715660893_2_alg».proof.Proof.LibWhole
import proofs.«114296_j4509715660893_2_alg».proof.Proof.LibRowwise
import proofs.«114296_j4509715660893_2_alg».proof.Proof.LibLaneSum

set_option maxRecDepth 16384

noncomputable section

open scoped BigOperators

namespace Cert.KernelIdeal.Body

open Idealize.ShloMosaic Idealize.ShloMosaic.ValueIdx Idealize.ShloMosaic.Tactic Cert.KernelIdeal Cert.KernelIdeal.Gen
open Cert.KernelIdeal.Stages Cert.KernelIdeal.Scratch Cert.Cheb

/-- The specification of one graph over the blocks the body is handed: the node features and the operator with their
    unit batch axis, the projection weights with channels before features (the host transposed them), the biases and
    dense weights as they are. -/
def headOf (x0 : Vec Ideal S1x2048x128 .f32) (x1 : Vec Ideal S1x2048x2048 .f32) (x2 : Vec Ideal S4x8x128 .f32) (x3 : Vec Ideal S8 .f32) (x4 : Vec Ideal S8x32 .f32) (x5 : Vec Ideal S32 .f32) (x6 : Vec Ideal S32x16 .f32) (x7 : Vec Ideal S16 .f32) (x8 : Vec Ideal S16x1 .f32) (x9 : Vec Ideal S1 .f32) : EReal :=
  Cert.Cheb.head (fun n f => x0 (ix3 (0 : Fin 1) n f)) (fun n j => x1 (ix3 (0 : Fin 1) n j)) (fun k f c => x2 (ix3 k c f))
    (fun c => x3 (ix1 c)) (fun c j => x4 (ix2 c j)) (fun j => x5 (ix1 j)) (fun k j => x6 (ix2 k j)) (fun j => x7 (ix1 j))
    (fun k => x8 (ix2 k (0 : Fin 1))) (x9 (ix1 (0 : Fin 1)))

/-- The staged node features, operator, projection weights and channel bias as the specification reads them. -/
abbrev Xv (x0 : Vec Ideal S1x2048x128 .f32) : Fin 2048 → Fin 128 → EReal := fun n f => x0 (ix3 (0 : Fin 1) n f)
abbrev Av (x1 : Vec Ideal S1x2048x2048 .f32) : Fin 2048 → Fin 2048 → EReal := fun n j => x1 (ix3 (0 : Fin 1) n j)
abbrev Wv (x2 : Vec Ideal S4x8x128 .f32) : Fin 4 → Fin 128 → Fin 8 → EReal := fun k f c => x2 (ix3 k c f)
abbrev Cv (x3 : Vec Ideal S8 .f32) : Fin 8 → EReal := fun c => x3 (ix1 c)

/-! ## The channel sums -/

/-- The lane sums of the hidden activations, kept as a column: entry `(c, u)` is the specification's channel sum. -/
theorem pool_body (x0 : Vec Ideal S1x2048x128 .f32) (x1 : Vec Ideal S1x2048x2048 .f32) (x2 : Vec Ideal S4x8x128 .f32)
    (x3 : Vec Ideal S8 .f32) (c : Fin 8) (u : Fin 1) :
    k0_pay8 (F := Ideal) (k0_pay6 x0) (k0_pay7 x0) (aT x1) (aT x1) (aT x1) x2 x3 (ix2 c u)
      = pooled (Xv x0) (Av x1) (Wv x2) (Cv x3) c := by
  have hS0 : ∀ f n, k0_pay6 (F := Ideal) x0 (ix2 f n) = Xv x0 n f := feat x0
  have hS0b : ∀ f n, k0_pay7 (F := Ideal) x0 (ix2 f n) = Xv x0 n f := featb x0
  have hAT : ∀ k n, aT x1 (ix2 k n) = Av x1 n k := fun k n => aT_apply x1 k n
  have hS1 := step1 _ _ (Xv x0) (Av x1) hS0b hAT
  have hS2 := stepk _ _ _ (Xv x0) (t1 (Xv x0) (Av x1)) (Av x1) hS0 hS1 hAT bitsLt_bf16_f32
  have hS3 := stepk _ _ _ (t1 (Xv x0) (Av x1)) (t2 (Xv x0) (Av x1)) (Av x1) hS1 hS2 hAT bitsLt_bf16_f32
  have hk0 := fun c f => wslice x2 0 (by omega) shapeCasts_S4x8x128_S4x8x128 slices_S4x8x128_o0_0_0_S1x8x128 shapeCasts_S1x8x128_S8x128 c f
  have hk1 := fun c f => wslice x2 1 (by omega) shapeCasts_S4x8x128_S4x8x128 slices_S4x8x128_o1_0_0_S1x8x128 shapeCasts_S1x8x128_S8x128 c f
  have hk2 := fun c f => wslice x2 2 (by omega) shapeCasts_S4x8x128_S4x8x128 slices_S4x8x128_o2_0_0_S1x8x128 shapeCasts_S1x8x128_S8x128 c f
  have hk3 := fun c f => wslice x2 3 (by omega) shapeCasts_S4x8x128_S4x8x128 slices_S4x8x128_o3_0_0_S1x8x128 shapeCasts_S1x8x128_S8x128 c f
  have hb := bias_col x3 shapeCasts_S8_S8x1 broadcasts_S8x1_S8x2048
  have hz : ∀ (c : Fin 8) (n : Fin 2048), broadcast S8x2048 (Scalar.ofBits (F := Ideal) .f32 0x00000000#32) (ix2 c n) = (0 : EReal) :=
    fun c n => zero_splat _
  unfold k0_pay8
  refine (Cert.LibLaneSum.lane_sum_col _ _ _ _ _ c u).trans ?_
  unfold Cert.Cheb.pooled
  refine Finset.sum_congr rfl fun n _ => ?_
  exact hid_eq _ _ _ _ _ _ _ _ _ _ (Xv x0) (t1 (Xv x0) (Av x1)) (t2 (Xv x0) (Av x1)) (t3 (Xv x0) (Av x1)) (Wv x2) (Cv x3)
    hS0 hS1 hS2 hS3 hk0 hk1 hk2 hk3 hb hz c n

/-! ## The dense head -/

/-- The payload of the body's one store over ANY column of channel sums: the three dense layers. -/
theorem mlp_eq (v70 : FVec Ideal S8x1 .f32) (x4 : Vec Ideal S8x32 .f32) (x5 : Vec Ideal S32 .f32) (x6 : Vec Ideal S32x16 .f32)
    (x7 : Vec Ideal S16 .f32) (x8 : Vec Ideal S16x1 .f32) (x9 : Vec Ideal S1 .f32) (pl : Fin 8 → EReal)
    (hpl : ∀ c u, v70 (ix2 c u) = pl c) (u0 u1 u2 : Fin 1) :
    k0_pay1 (F := Ideal) v70 x4 x5 x6 x7 x8 x9 (ix3 u0 u1 u2)
      = (∑ k : Fin 16, max ((∑ k' : Fin 32, max ((∑ c : Fin 8, pl c * x4 (ix2 c k')) + x5 (ix1 k')) 0 * x6 (ix2 k' k))
          + x7 (ix1 k)) 0 * x8 (ix2 k u2)) + x9 (ix1 u2) := by
  unfold k0_pay1
  refine (shapeCast_ab_1ab_apply _ _ u0 u1 u2).trans ?_
  refine layer3 _ _ _ _
    (fun k => max ((∑ k' : Fin 32, max ((∑ c : Fin 8, pl c * x4 (ix2 c k')) + x5 (ix1 k')) 0 * x6 (ix2 k' k)) + x7 (ix1 k)) 0)
    (fun u k => ?_) u1 u2
  refine layer2 _ _ _ _ (fun k' => max ((∑ c : Fin 8, pl c * x4 (ix2 c k')) + x5 (ix1 k')) 0) (fun u k' => ?_) u k
  refine layer1 _ _ _ _ pl (fun u c => ?_) u k'
  exact (transpose_ix2_apply v70 _ u c).trans (hpl c u)

/-- The payload over the staged blocks, with the scratch buffer already read back as the transposed operator. -/
theorem payload_eq (x0 : Vec Ideal S1x2048x128 .f32) (x1 : Vec Ideal S1x2048x2048 .f32) (x2 : Vec Ideal S4x8x128 .f32) (x3 : Vec Ideal S8 .f32) (x4 : Vec Ideal S8x32 .f32) (x5 : Vec Ideal S32 .f32) (x6 : Vec Ideal S32x16 .f32) (x7 : Vec Ideal S16 .f32) (x8 : Vec Ideal S16x1 .f32) (x9 : Vec Ideal S1 .f32) (y : S1x1x1.Idx) :
    k0_pay1 (F := Ideal) (k0_pay8 (k0_pay6 x0) (k0_pay7 x0) (aT x1) (aT x1) (aT x1) x2 x3) x4 x5 x6 x7 x8 x9 y
      = headOf x0 x1 x2 x3 x4 x5 x6 x7 x8 x9 := by
  obtain ⟨u0, u1, u2, rfl⟩ : ∃ (u0 u1 u2 : Fin 1), y = ix3 u0 u1 u2 := ⟨y 0, y 1, y 2, eq_ix3 y⟩
  obtain rfl : u2 = 0 := Subsingleton.elim _ _
  refine (mlp_eq _ x4 x5 x6 x7 x8 x9 (pooled (Xv x0) (Av x1) (Wv x2) (Cv x3)) (pool_body x0 x1 x2 x3) u0 u1 0).trans ?_
  rfl

/-! ## The output block -/

theorem hz1 : (![0] : Fin 1 → ℕ) = fun _ => 0 := funext fun a => by match a with | ⟨0, _⟩ => rfl
theorem hz2 : (![0, 0] : Fin 2 → ℕ) = fun _ => 0 := funext fun a => by match a with | ⟨0, _⟩ => rfl | ⟨1, _⟩ => rfl
theorem hz3 : (![0, 0, 0] : Fin 3 → ℕ) = fun _ => 0 :=
  funext fun a => by match a with | ⟨0, _⟩ => rfl | ⟨1, _⟩ => rfl | ⟨2, _⟩ => rfl

/-- The output block after the body, at its one index, is the specification of the staged graph: the one store covers
    the block, each whole-buffer load reads the staged contents, and the scratch reads back the transposed operator. -/
theorem out_eq (c : Dev nD) (i : grid0.Coords) (arg1 : Memref sig .tc .vmem S1x2048x128 .f32) (harg1 : arg1.IsWhole) (arg2 : Memref sig .tc .vmem S1x2048x2048 .f32) (harg2 : arg2.IsWhole) (arg3 : Memref sig .tc .vmem S4x8x128 .f32) (harg3 : arg3.IsWhole) (arg4 : Memref sig .tc .vmem S8 .f32) (harg4 : arg4.IsWhole) (arg5 : Memref sig .tc .vmem S8x32 .f32) (harg5 : arg5.IsWhole) (arg6 : Memref sig .tc .vmem S32 .f32) (harg6 : arg6.IsWhole) (arg7 : Memref sig .tc .vmem S32x16 .f32) (harg7 : arg7.IsWhole) (arg8 : Memref sig .tc .vmem S16 .f32) (harg8 : arg8.IsWhole) (arg9 : Memref sig .tc .vmem S16x1 .f32) (harg9 : arg9.IsWhole) (arg10 : Memref sig .tc .vmem S1 .f32) (harg10 : arg10.IsWhole) (arg11 : Memref sig .tc .vmem S1x1x1 .f32) (harg11 : arg11.IsWhole) (arg12 : Memref sig .tc .vmem S2048x2048 .bf16) (harg12 : arg12.IsWhole)
    (x0 : Vec Ideal S1x2048x128 .f32) (x1 : Vec Ideal S1x2048x2048 .f32) (x2 : Vec Ideal S4x8x128 .f32) (x3 : Vec Ideal S8 .f32) (x4 : Vec Ideal S8x32 .f32) (x5 : Vec Ideal S32 .f32) (x6 : Vec Ideal S32x16 .f32) (x7 : Vec Ideal S16 .f32) (x8 : Vec Ideal S16x1 .f32) (x9 : Vec Ideal S1 .f32) (y : S1x1x1.Idx) :
    out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 y = headOf x0 x1 x2 x3 x4 x5 x6 x7 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)]
  unfold kernelRun0_A
  dsimp only
  sl_unfold_words
  rw [View.canon_unit_zero hz3]
  rw [scratch_eq arg12 arg2 harg2 x1]
  rw [Cert.LibWhole.readAt_whole arg1.view (harg1.unread x0) hz3, harg1.read_unread x0,
    Cert.LibWhole.readAt_whole arg3.view (harg3.unread x2) hz3, harg3.read_unread x2,
    Cert.LibWhole.readAt_whole arg4.view (harg4.unread x3) hz1, harg4.read_unread x3,
    Cert.LibWhole.readAt_whole arg5.view (harg5.unread x4) hz2, harg5.read_unread x4,
    Cert.LibWhole.readAt_whole arg6.view (harg6.unread x5) hz1, harg6.read_unread x5,
    Cert.LibWhole.readAt_whole arg7.view (harg7.unread x6) hz2, harg7.read_unread x6,
    Cert.LibWhole.readAt_whole arg8.view (harg8.unread x7) hz1, harg8.read_unread x7,
    Cert.LibWhole.readAt_whole arg9.view (harg9.unread x8) hz2, harg9.read_unread x8,
    Cert.LibWhole.readAt_whole arg10.view (harg10.unread x9) hz1, harg10.read_unread x9]
  exact payload_eq x0 x1 x2 x3 x4 x5 x6 x7 x8 x9 y

end Cert.KernelIdeal.Body

end
-- ==== Proof.KValue.lean ====
/-
  The kernel's run with its result named.

  Grid point `t` stages graph `t`'s node features and operator and the shared weights, and the body leaves the
  specification of that graph in the `1 × 1 × 1` output block (`Body.out_eq`); block `t` of the `16 × 1 × 1` result
  array is that block, the sixteen blocks cover the array, and the host's reshape to `16 × 1` keeps the row-major
  position.  So the result is `Cert.Cheb.result` of the argument arrays, which end unchanged.
-/
import proofs.«114296_j4509715660893_2_alg».proof.Proof.Body

set_option maxRecDepth 16384

noncomputable section

namespace Cert.KernelIdeal.KValue

open Idealize.ShloMosaic Idealize.ShloMosaic.TcCoe Idealize.ShloMosaic.ValueIdx Idealize.SL.Sem Cert.KernelIdeal Cert.KernelIdeal.Gen

/-! ## Where each window's block sits

The grid has one axis of sixteen points.  Windows 0, 1 and 10 move with the point along their first axis, one
row of it per point; the others are whole arrays at block index zero. -/

/-- The block indices of every window at every point, decided over the grid. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 3) = t.val ∧ win0_10.index t (1 : Fin 3) = 0 ∧ win0_10.index t (2 : Fin 3) = 0 :=
  (by decide +kernel : ∀ t : Fin grid0.N, _)

section Blocks

variable (m : (ℓ : Loc nD τ sig) → Buf (Elt Ideal) ℓ)

/-- Window 0's block at point `t` is row `t` of the node features. -/
theorem blk0 (c : Dev nD) (t : Fin cfg0.N) (ht : t.val < 16) (n : Fin 2048) (f : Fin 128) :
    (iblk m c 0 t : Vec Ideal S1x2048x128 .f32) (ix3 (0 : Fin 1) n f)
      = m ((c.tc : Thread nD τ).loc main_arg0) (ix3 (⟨t.val, ht⟩ : Fin 16) n f) := by
  obtain ⟨e0, e1, e2, -⟩ := idx_facts t
  show V m c main_arg0 (((cfg0.win 0).blk t).view.emb (ix3 (0 : Fin 1) n f)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 128 + 1 * f.val = f.val; omega

/-- Window 1's block at point `t` is row `t` of the operator. -/
theorem blk1 (c : Dev nD) (t : Fin cfg0.N) (ht : t.val < 16) (n : Fin 2048) (j : Fin 2048) :
    (iblk m c 1 t : Vec Ideal S1x2048x2048 .f32) (ix3 (0 : Fin 1) n j)
      = m ((c.tc : Thread nD τ).loc main_arg1) (ix3 (⟨t.val, ht⟩ : Fin 16) n j) := by
  obtain ⟨-, -, -, e0, e1, e2, -⟩ := idx_facts t
  show V m c main_arg1 (((cfg0.win 1).blk t).view.emb (ix3 (0 : Fin 1) n j)) = _
  rw [V_main_arg1]
  refine congrArg _ (funext fun a => Fin.ext ?_)
  match a with
  | ⟨0, _⟩ => show win0_1.index t (0 : Fin 3) * 1 + 1 * 0 = t.val; omega
  | ⟨1, _⟩ => show win0_1.index t (1 : Fin 3) * 2048 + 1 * n.val = n.val; omega
  | ⟨2, _⟩ => show win0_1.index t (2 : Fin 3) * 2048 + 1 * j.val = j.val; omega

/-- The array window 2 stages is the projection weights with their last two axes exchanged: the host's one operation
    before the region. -/
theorem V_main_v0 (c : Dev nD) :
    (V m c main_v0 : S4x8x128.Idx → Elt Ideal .f32)
      = transpose S4x8x128 [0, 2, 1] (m ((c.tc : Thread nD τ).loc main_arg2)) transposes_S4x128x8_S4x8x128_0_2_1 := by
  show StableHlo.after hostOps0 (fun b => m (c, b)) (Proc.devRef .tc main_v0) = _
  after_results

/-- Window 2's block, at every point, is the whole of that array: entry `(k, c, f)` is the weight `(k, f, c)`. -/
theorem blk2 (c : Dev nD) (t : Fin cfg0.N) (k : Fin 4) (ch : Fin 8) (f : Fin 128) :
    (iblk m c 2 t : Vec Ideal S4x8x128 .f32) (ix3 k ch f)
      = m ((c.tc : Thread nD τ).loc main_arg2) (ix3 k f ch) := by
  obtain ⟨-, -, -, -, -, -, e0, e1, e2, -⟩ := idx_facts t
  have he : ((cfg0.win 2).blk t).view.emb (ix3 k ch f) = ix3 k ch f := by
    refine funext fun a => Fin.ext ?_
    match a with
    | ⟨0, _⟩ => show win0_2.index t (0 : Fin 3) * 4 + 1 * k.val = k.val; omega
    | ⟨1, _⟩ => show win0_2.index t (1 : Fin 3) * 8 + 1 * ch.val = ch.val; omega
    | ⟨2, _⟩ => show win0_2.index t (2 : Fin 3) * 128 + 1 * f.val = f.val; omega
  show V m c main_v0 (((cfg0.win 2).blk t).view.emb (ix3 k ch f)) = _
  rw [he, V_main_v0]
  exact transpose_ix3_021_apply _ _ k ch f

/-- Window 3's block is the whole channel bias. -/
theorem blk3 (c : Dev nD) (t : Fin cfg0.N) (y : S8.Idx) :
    (iblk m c 3 t : Vec Ideal S8 .f32) y = m ((c.tc : Thread nD τ).loc main_arg3) y := by
  obtain ⟨-, -, -, -, -, -, -, -, -, e3, e40, e41, e5, e60, e61, e7, e80, e81, e9, -⟩ := idx_facts t
  show V m c main_arg3 (((cfg0.win 3).blk t).view.emb y) = _
  rw [V_main_arg3]
  refine congrArg _ (funext fun a => Fin.ext ?_)
  match a with
  | ⟨0, _⟩ => show win0_3.index t (0 : Fin 1) * 8 + 1 * (y 0).val = (y 0).val; omega

/-- Window 4's block is the whole first dense matrix. -/
theorem blk4 (c : Dev nD) (t : Fin cfg0.N) (y : S8x32.Idx) :
    (iblk m c 4 t : Vec Ideal S8x32 .f32) y = m ((c.tc : Thread nD τ).loc main_arg4) y := by
  obtain ⟨-, -, -, -, -, -, -, -, -, e3, e40, e41, e5, e60, e61, e7, e80, e81, e9, -⟩ := idx_facts t
  show V m c main_arg4 (((cfg0.win 4).blk t).view.emb y) = _
  rw [V_main_arg4]
  refine congrArg _ (funext fun a => Fin.ext ?_)
  match a with
  | ⟨0, _⟩ => show win0_4.index t (0 : Fin 2) * 8 + 1 * (y 0).val = (y 0).val; omega
  | ⟨1, _⟩ => show win0_4.index t (1 : Fin 2) * 32 + 1 * (y 1).val = (y 1).val; omega

/-- Window 5's block is the whole first dense bias. -/
theorem blk5 (c : Dev nD) (t : Fin cfg0.N) (y : S32.Idx) :
    (iblk m c 5 t : Vec Ideal S32 .f32) y = m ((c.tc : Thread nD τ).loc main_arg5) y := by
  obtain ⟨-, -, -, -, -, -, -, -, -, e3, e40, e41, e5, e60, e61, e7, e80, e81, e9, -⟩ := idx_facts t
  show V m c main_arg5 (((cfg0.win 5).blk t).view.emb y) = _
  rw [V_main_arg5]
  refine congrArg _ (funext fun a => Fin.ext ?_)
  match a with
  | ⟨0, _⟩ => show win0_5.index t (0 : Fin 1) * 32 + 1 * (y 0).val = (y 0).val; omega

/-- Window 6's block is the whole second dense matrix. -/
theorem blk6 (c : Dev nD) (t : Fin cfg0.N) (y : S32x16.Idx) :
    (iblk m c 6 t : Vec Ideal S32x16 .f32) y = m ((c.tc : Thread nD τ).loc main_arg6) y := by
  obtain ⟨-, -, -, -, -, -, -, -, -, e3, e40, e41, e5, e60, e61, e7, e80, e81, e9, -⟩ := idx_facts t
  show V m c main_arg6 (((cfg0.win 6).blk t).view.emb y) = _
  rw [V_main_arg6]
  refine congrArg _ (funext fun a => Fin.ext ?_)
  match a with
  | ⟨0, _⟩ => show win0_6.index t (0 : Fin 2) * 32 + 1 * (y 0).val = (y 0).val; omega
  | ⟨1, _⟩ => show win0_6.index t (1 : Fin 2) * 16 + 1 * (y 1).val = (y 1).val; omega

/-- Window 7's block is the whole second dense bias. -/
theorem blk7 (c : Dev nD) (t : Fin cfg0.N) (y : S16.Idx) :
    (iblk m c 7 t : Vec Ideal S16 .f32) y = m ((c.tc : Thread nD τ).loc main_arg7) y := by
  obtain ⟨-, -, -, -, -, -, -, -, -, e3, e40, e41, e5, e60, e61, e7, e80, e81, e9, -⟩ := idx_facts t
  show V m c main_arg7 (((cfg0.win 7).blk t).view.emb y) = _
  rw [V_main_arg7]
  refine congrArg _ (funext fun a => Fin.ext ?_)
  match a with
  | ⟨0, _⟩ => show win0_7.index t (0 : Fin 1) * 16 + 1 * (y 0).val = (y 0).val; omega

/-- Window 8's block is the whole last dense column. -/
theorem blk8 (c : Dev nD) (t : Fin cfg0.N) (y : S16x1.Idx) :
    (iblk m c 8 t : Vec Ideal S16x1 .f32) y = m ((c.tc : Thread nD τ).loc main_arg8) y := by
  obtain ⟨-, -, -, -, -, -, -, -, -, e3, e40, e41, e5, e60, e61, e7, e80, e81, e9, -⟩ := idx_facts t
  show V m c main_arg8 (((cfg0.win 8).blk t).view.emb y) = _
  rw [V_main_arg8]
  refine congrArg _ (funext fun a => Fin.ext ?_)
  match a with
  | ⟨0, _⟩ => show win0_8.index t (0 : Fin 2) * 16 + 1 * (y 0).val = (y 0).val; omega
  | ⟨1, _⟩ => show win0_8.index t (1 : Fin 2) * 1 + 1 * (y 1).val = (y 1).val; omega

/-- Window 9's block is the one last bias. -/
theorem blk9 (c : Dev nD) (t : Fin cfg0.N) (y : S1.Idx) :
    (iblk m c 9 t : Vec Ideal S1 .f32) y = m ((c.tc : Thread nD τ).loc main_arg9) y := by
  obtain ⟨-, -, -, -, -, -, -, -, -, e3, e40, e41, e5, e60, e61, e7, e80, e81, e9, -⟩ := idx_facts t
  show V m c main_arg9 (((cfg0.win 9).blk t).view.emb y) = _
  rw [V_main_arg9]
  refine congrArg _ (funext fun a => Fin.ext ?_)
  match a with
  | ⟨0, _⟩ => show win0_9.index t (0 : Fin 1) * 1 + 1 * (y 0).val = (y 0).val; omega

end Blocks

/-! ## From the staged blocks to the arrays -/

/-- The specification over ten blocks that agree with the arrays at graph `b` — the first two along their unit batch
    axis, the projection weights with channels and features exchanged, the rest entry by entry — is the
    specification of graph `b` over the arrays. -/
theorem headOf_eq (x0 : Vec Ideal S1x2048x128 .f32) (x1 : Vec Ideal S1x2048x2048 .f32) (x2 : Vec Ideal S4x8x128 .f32) (x3 : Vec Ideal S8 .f32) (x4 : Vec Ideal S8x32 .f32) (x5 : Vec Ideal S32 .f32) (x6 : Vec Ideal S32x16 .f32) (x7 : Vec Ideal S16 .f32) (x8 : Vec Ideal S16x1 .f32) (x9 : Vec Ideal S1 .f32)
    (A0 : S16x2048x128.Idx → EReal) (A1 : S16x2048x2048.Idx → EReal) (A2 : S4x128x8.Idx → EReal) (A3 : S8.Idx → EReal) (A4 : S8x32.Idx → EReal) (A5 : S32.Idx → EReal) (A6 : S32x16.Idx → EReal) (A7 : S16.Idx → EReal) (A8 : S16x1.Idx → EReal) (A9 : S1.Idx → EReal)
    (b : Fin 16)
    (h0 : ∀ n f, x0 (ix3 (0 : Fin 1) n f) = A0 (ix3 b n f)) (h1 : ∀ n j, x1 (ix3 (0 : Fin 1) n j) = A1 (ix3 b n j))
    (h2 : ∀ k ch f, x2 (ix3 k ch f) = A2 (ix3 k f ch)) (h3 : ∀ y, x3 y = A3 y) (h4 : ∀ y, x4 y = A4 y) (h5 : ∀ y, x5 y = A5 y)
    (h6 : ∀ y, x6 y = A6 y) (h7 : ∀ y, x7 y = A7 y) (h8 : ∀ y, x8 y = A8 y) (h9 : ∀ y, x9 y = A9 y) :
    Body.headOf x0 x1 x2 x3 x4 x5 x6 x7 x8 x9
      = Cert.Cheb.head (fun n f => A0 (ix3 b n f)) (fun n j => A1 (ix3 b n j)) (fun k f ch => A2 (ix3 k f ch))
        (fun ch => A3 (ix1 ch)) (fun ch j => A4 (ix2 ch j)) (fun j => A5 (ix1 j)) (fun k j => A6 (ix2 k j)) (fun j => A7 (ix1 j))
        (fun k => A8 (ix2 k (0 : Fin 1))) (A9 (ix1 (0 : Fin 1))) := by
  unfold Body.headOf
  simp only [h0, h1, h2, h3, h4, h5, h6, h7, h8, h9]

section Result

variable (m : (ℓ : Loc nD τ sig) → Buf (Elt Ideal) ℓ)

/-- The result array as the region leaves it: entry `(b, 0, 0)` is the specification's output for graph `b`. -/
def G3 (c : Dev nD) : S16x1x1.Idx → EReal := fun i =>
  Cert.Cheb.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    (ix2 (⟨(i 0).val, (i 0).isLt⟩ : Fin 16) (0 : Fin 1))

/-- That entry, with the graph named. -/
theorem G3_at (c : Dev nD) (i : S16x1x1.Idx) (b : Fin 16) (hb : (i 0).val = b.val) :
    G3 m c i = Cert.Cheb.head (fun n f => (m ((c.tc : Thread nD τ).loc main_arg0)) (ix3 b n f)) (fun n j => (m ((c.tc : Thread nD τ).loc main_arg1)) (ix3 b n j)) (fun k f ch => (m ((c.tc : Thread nD τ).loc main_arg2)) (ix3 k f ch))
        (fun ch => (m ((c.tc : Thread nD τ).loc main_arg3)) (ix1 ch)) (fun ch j => (m ((c.tc : Thread nD τ).loc main_arg4)) (ix2 ch j)) (fun j => (m ((c.tc : Thread nD τ).loc main_arg5)) (ix1 j)) (fun k j => (m ((c.tc : Thread nD τ).loc main_arg6)) (ix2 k j)) (fun j => (m ((c.tc : Thread nD τ).loc main_arg7)) (ix1 j))
        (fun k => (m ((c.tc : Thread nD τ).loc main_arg8)) (ix2 k (0 : Fin 1))) ((m ((c.tc : Thread nD τ).loc main_arg9)) (ix1 (0 : Fin 1))) := by
  obtain rfl : b = ⟨(i 0).val, (i 0).isLt⟩ := Fin.ext hb.symm
  rfl

/-- What point `t` writes back is block `t` of the result array: the body leaves the specification of the staged
    graph, the staged graph is graph `t`, and the block's one entry is entry `(t, 0, 0)`. -/
theorem flushed_eq (c : Dev nD) (t : Fin cfg0.N) :
    (dats m 0 c).flushed 10 t = ((cfg0.win 10).blk t).view.read (Elt Ideal) (G3 m c) := by
  have ht : t.val < 16 := lt_of_lt_of_eq t.isLt N_0
  obtain ⟨-, -, -, -, -, -, -, -, -, -, -, -, -, -, -, -, -, -, -, e0, e1, e2⟩ := idx_facts t
  show (cfg0.win 10).cut (grid0.coords t) ((dats m 0 c).after 10 t) = _
  rw [after0_10]
  funext y
  show outsAt0 m c t y = G3 m c (((cfg0.win 10).blk t).view.emb y)
  unfold outsAt0
  refine (Body.out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) y).trans ?_
  have hy : (y 0).val < 1 := (y 0).isLt
  rw [G3_at m c _ (⟨t.val, ht⟩ : Fin 16) (by show win0_10.index t (0 : Fin 3) * 1 + 1 * (y 0).val = t.val; omega)]
  exact headOf_eq (iblk m c 0 t) (iblk m c 1 t) (iblk m c 2 t) (iblk m c 3 t) (iblk m c 4 t) (iblk m c 5 t) (iblk m c 6 t) (iblk m c 7 t) (iblk m c 8 t) (iblk m c 9 t)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (⟨t.val, ht⟩ : Fin 16)
    (blk0 m c t ht) (blk1 m c t ht) (blk2 m c t) (blk3 m c t) (blk4 m c t) (blk5 m c t) (blk6 m c t) (blk7 m c t) (blk8 m c t) (blk9 m c t)

/-- An entry of the result array is in point `t`'s block iff each coordinate is in the block's range on its axis. -/
theorem mem_blk10 (t : Fin cfg0.N) (i : S16x1x1.Idx) :
    i ∈ ((cfg0.win 10).blk t).view.set ↔ ∀ a : Fin 3, win0_10.index t a * S1x1x1.size a ≤ (i a).val ∧ (i a).val < win0_10.index t a * S1x1x1.size a + S1x1x1.size a := by
  show i ∈ ((View.whole main_v1).slice (win0_10.rect t)).set ↔ _
  rw [View.set_slice_whole, Rect.mem_set_unit]
  exact Iff.rfl

/-- The sixteen blocks cover the result array: entry `(r, 0, 0)` is in the block of point `r`. -/
theorem cover10 (i : S16x1x1.Idx) : ∃ t : Fin cfg0.N, (cfg0.win 10).flush t = true ∧ i ∈ ((cfg0.win 10).blk t).view.set := by
  have h0 : (i 0).val < 16 := (i 0).isLt
  have h1 : (i 1).val < 1 := (i 1).isLt
  have h2 : (i 2).val < 1 := (i 2).isLt
  obtain ⟨t, htv⟩ : ∃ t : Fin cfg0.N, t.val = (i 0).val := ⟨⟨(i 0).val, lt_of_lt_of_eq h0 N_0.symm⟩, rfl⟩
  obtain ⟨-, -, -, -, -, -, -, -, -, -, -, -, -, -, -, -, -, -, -, e0, e1, e2⟩ := idx_facts t
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 1 ≤ (i 1).val ∧ (i 1).val < win0_10.index t (1 : Fin 3) * 1 + 1; omega
  | ⟨2, _⟩ => show win0_10.index t (2 : Fin 3) * 1 ≤ (i 2).val ∧ (i 2).val < win0_10.index t (2 : Fin 3) * 1 + 1; omega

/-- The result array after the run. -/
theorem final (c : Dev nD) : (dats m 0 c).arrAt 10 cfg0.N = G3 m c :=
  (dats m 0 c).arrAt_eq_of_cover 10 (G3 m c) (fun t _ => flushed_eq m c t) cover10

/-- The host's reshape of the result array to `16 × 1` keeps the row-major position: entry `(b, 0)` is entry
    `(b, 0, 0)`, the specification's output for graph `b`. -/
theorem tail_eq (c : Dev nD) :
    Pipeline.afterTail₀ cfgs (dats m) 0 (V0 m) [hostOps1] c main_v2
      = Cert.Cheb.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Pipeline.afterTail₀
  show StableHlo.after hostOps1 _ (Proc.devRef .tc main_v2) = _
  after_results
  funext j
  show shapeCast S16x1 (Pipeline.withArrays (cfgs 0).spec c (V0 m c) (fun w => (dats m 0 c).arrAt w (cfgs 0).N)
    (Proc.devRef .tc main_v1)) shapeCasts_S16x1x1_S16x1 j = _
  have hw : Pipeline.withArrays (cfgs 0).spec c (V0 m c) (fun w => (dats m 0 c).arrAt w (cfgs 0).N) (Proc.devRef .tc main_v1)
      = G3 m c :=
    (Pipeline.withArrays_arr spec0 launch0.win.arr_inj c _ _ 10).trans (final m c)
  have hj0 : (j 0).val < 16 := (j 0).isLt
  have hj1 : (j 1).val < 1 := (j 1).isLt
  refine (shapeCast_apply _ shapeCasts_S16x1x1_S16x1 j (ix3 (⟨(j 0).val, hj0⟩ : Fin 16) (0 : Fin 1) (0 : Fin 1)) ?_).trans ?_
  · rw [Shape.rowMajor_val_three, Shape.rowMajor_val_two]
    show ((j 0).val * 1 + 0) * 1 + 0 = (j 0).val * 1 + (j 1).val
    omega
  · rw [hw]
    rfl

end Result

/-- Every weakly fair execution of the idealized kernel's program terminates with the result array at the
    specification of the argument arrays, and the argument arrays as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
          = Cert.Cheb.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

end Cert.KernelIdeal.KValue

end
-- ==== Proof.Claims.lean ====
/-
  The five claims.

  The three frames are the generated ones (the reference's is its generated run with the result dropped), and the
  idealization rewrote nothing.  For the value claim both programs end at ONE function of the argument arrays,
  `Cert.Cheb.result`: the kernel by its run with the result named, the reference because its composed term, read entry by
  entry, is the specification of each graph.
-/
import proofs.«114296_j4509715660893_2_alg».proof.Defs
import proofs.«114296_j4509715660893_2_alg».proof.Proof.Gen.Kernel.Frame
import proofs.«114296_j4509715660893_2_alg».proof.Proof.Gen.KernelIdeal.Frame
import proofs.«114296_j4509715660893_2_alg».proof.Proof.Gen.ReferenceIdeal.Run
import proofs.«114296_j4509715660893_2_alg».proof.Proof.Gen.ReferenceIdeal.Read
import proofs.«114296_j4509715660893_2_alg».proof.Proof.Gen.Pre_finite_inputs
import proofs.«114296_j4509715660893_2_alg».proof.Proof.RefSide
import proofs.«114296_j4509715660893_2_alg».proof.Proof.KValue

noncomputable section

namespace Cert.Proof.Claims

open Idealize.ShloMosaic Idealize.ShloMosaic.TcCoe Idealize.ShloMosaic.ValueIdx Idealize.SL.Sem

/-- The reference's result, as a whole array, is the specification of the argument arrays: entry `(b, u)` is graph
    `b`'s output. -/
theorem ref_result (X0 : (⟨Cert.ReferenceIdeal.S16x2048x128, .f32⟩ : BufTy).Contents (Elt Ideal)) (X1 : (⟨Cert.ReferenceIdeal.S16x2048x2048, .f32⟩ : BufTy).Contents (Elt Ideal))
    (X2 : (⟨Cert.ReferenceIdeal.S4x128x8, .f32⟩ : BufTy).Contents (Elt Ideal)) (X3 : (⟨Cert.ReferenceIdeal.S8, .f32⟩ : BufTy).Contents (Elt Ideal))
    (X4 : (⟨Cert.ReferenceIdeal.S8x32, .f32⟩ : BufTy).Contents (Elt Ideal)) (X5 : (⟨Cert.ReferenceIdeal.S32, .f32⟩ : BufTy).Contents (Elt Ideal))
    (X6 : (⟨Cert.ReferenceIdeal.S32x16, .f32⟩ : BufTy).Contents (Elt Ideal)) (X7 : (⟨Cert.ReferenceIdeal.S16, .f32⟩ : BufTy).Contents (Elt Ideal))
    (X8 : (⟨Cert.ReferenceIdeal.S16x1, .f32⟩ : BufTy).Contents (Elt Ideal)) (X9 : (⟨Cert.ReferenceIdeal.S1, .f32⟩ : BufTy).Contents (Elt Ideal)) :
    Cert.ReferenceIdeal.Read.val_main_v42 (F := Ideal) X0 X1 X2 X3 X4 X5 X6 X7 X8 X9
      = Cert.Cheb.result X0 X1 X2 X3 X4 X5 X6 X7 X8 X9 := by
  funext i
  obtain ⟨b, u, rfl⟩ : ∃ (b : Fin 16) (u : Fin 1), i = ix2 b u := ⟨i 0, i 1, eq_ix2 i⟩
  exact Cert.RefSide.ref_eq X0 X1 X2 X3 X4 X5 X6 X7 X8 X9 b u

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs, from memories that agree on the arguments, end with the result array at the
    specification of the arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v42_eq (F := Ideal) _ _ _ _ _ _ _ _ _ _).trans ?_
  rw [ref_result, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

end Cert.Proof.Claims

end
-- ==== Proof.lean ====
/-
  The certificate: an idealized Chebyshev graph convolution with a dense head, kept in transposed space by the kernel,
  against its batched reference.

  Both programs compute, for each of the 16 graphs, the function `Cert.Cheb.head` (Proof/Spec.lean) of that graph's node
  features and operator and of the shared weights.  The kernel holds every Chebyshev term transposed and multiplies it by
  the transposed operator, read back from a scratch buffer it fills tile by tile (Proof/Scratch.lean, Proof/Stages.lean,
  Proof/Body.lean); grid point `t` leaves graph `t`'s output in block `t` of the result (Proof/KValue.lean).  The
  reference's batched products, read at batch `b`, are the same finite sums (Proof/RefSide.lean).  The claims are
  assembled in Proof/Claims.lean.
-/
import proofs.«114296_j4509715660893_2_alg».proof.Defs
import proofs.«114296_j4509715660893_2_alg».proof.Proof.Gen.Kernel
import proofs.«114296_j4509715660893_2_alg».proof.Proof.Gen.Kernel.Skeleton
import proofs.«114296_j4509715660893_2_alg».proof.Proof.Gen.Kernel.Launch
import proofs.«114296_j4509715660893_2_alg».proof.Proof.Gen.Kernel.Points
import proofs.«114296_j4509715660893_2_alg».proof.Proof.Gen.Kernel.Frame
import proofs.«114296_j4509715660893_2_alg».proof.Proof.Gen.KernelIdeal
import proofs.«114296_j4509715660893_2_alg».proof.Proof.Gen.KernelIdeal.Skeleton
import proofs.«114296_j4509715660893_2_alg».proof.Proof.Gen.KernelIdeal.Launch
import proofs.«114296_j4509715660893_2_alg».proof.Proof.Gen.KernelIdeal.Points
import proofs.«114296_j4509715660893_2_alg».proof.Proof.Gen.KernelIdeal.Frame
import proofs.«114296_j4509715660893_2_alg».proof.Proof.Gen.ReferenceIdeal
import proofs.«114296_j4509715660893_2_alg».proof.Proof.Gen.ReferenceIdeal.Run
import proofs.«114296_j4509715660893_2_alg».proof.Proof.Gen.Pre_finite_inputs
import proofs.«114296_j4509715660893_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, ⟨Cert.Proof.Claims.frame_k, Cert.Proof.Claims.frame_ki, Cert.Proof.Claims.frame_ri, Cert.Proof.Claims.preserves,
    Cert.Proof.Claims.algebraic⟩⟩

end Cert.Proof

end
